-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x24x3 : Shape := ⟨3, ![65536, 24, 3]⟩
abbrev S_ : Shape := ⟨0, ![]⟩

class Facts : Prop where
  bcast_S_S65536x24x3 : S_.BroadcastsInDim S65536x24x3 (![] : Fin 0 → Fin S65536x24x3.rank)
  reducesTo_S65536x24x3_S_d0_1_2 : S65536x24x3.ReducesTo [0, 1, 2] S_
  h_S_ : 0 < S_.numel

variable [Facts]

def fn {F : FTy → Type} [FloatOps F] (main_arg0 : FVec F S65536x24x3 .f32) : IVec S_ 1 :=
  let main_v0 : FVec F S65536x24x3 .f32 := Host.absf main_arg0
  let main_cst : FVec F S_ .f32 := constant S_ .f32 0x7F800000#32
  let main_v1 : FVec F S65536x24x3 .f32 := broadcastInDim S65536x24x3 ![] bcast_S_S65536x24x3 main_cst
  let main_v2 : IVec S65536x24x3 1 := cmpf .olt main_v0 main_v1
  let main_c : IVec S_ 1 := constantI S_ 1 1#1
  let main_v3 : IVec S_ 1 := (fun x v => Host.reduce IntOp.andi x v reducesTo_S65536x24x3_S_d0_1_2 h_S_) main_v2 main_c
  main_v3
-- ==== Kernel.lean ====
abbrev S65536x24x3 : Shape := ⟨3, ![65536, 24, 3]⟩
abbrev S24x24 : Shape := ⟨2, ![24, 24]⟩
abbrev S3x24x65536 : Shape := ⟨3, ![3, 24, 65536]⟩
abbrev S24x24x1 : Shape := ⟨3, ![24, 24, 1]⟩
abbrev S1x1x1 : Shape := ⟨3, ![1, 1, 1]⟩
abbrev S3x24x1024 : Shape := ⟨3, ![3, 24, 1024]⟩
abbrev S24x24x1024 : Shape := ⟨3, ![24, 24, 1024]⟩
abbrev S1x24x1024 : Shape := ⟨3, ![1, 24, 1024]⟩
abbrev S24x1024 : Shape := ⟨2, ![24, 1024]⟩
abbrev S24x1x1024 : Shape := ⟨3, ![24, 1, 1024]⟩
abbrev S1x1024 : Shape := ⟨2, ![1, 1024]⟩
abbrev S1x1x1024 : Shape := ⟨3, ![1, 1, 1024]⟩
abbrev S1x1 : Shape := ⟨2, ![1, 1]⟩
abbrev S_ : Shape := ⟨0, ![]⟩

abbrev nBuf : Space → Nat
  | .hbm => 18
  | .vmem => 5
  | .smem => 0
  | _ => 0

abbrev bufTy : (tb : Table) → Fin (tcTables nBuf tb) → BufTy
  | .hbm, ⟨0, _⟩ => ⟨S65536x24x3, .f32⟩
  | .hbm, ⟨1, _⟩ => ⟨S24x24, .f32⟩
  | .hbm, ⟨2, _⟩ => ⟨S3x24x65536, .f32⟩
  | .hbm, ⟨3, _⟩ => ⟨S24x24x1, .f32⟩
  | .hbm, ⟨4, _⟩ => ⟨S1x1x1, .f32⟩
  | .hbm, ⟨5, _⟩ => ⟨S1x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S3x24x1024, .f32⟩
  | .local _ .vmem, ⟨1, _⟩ => ⟨S3x24x1024, .f32⟩
  | .local _ .vmem, ⟨2, _⟩ => ⟨S24x24x1, .f32⟩
  | .local _ .vmem, ⟨3, _⟩ => ⟨S1x1x1, .f32⟩
  | .local _ .vmem, ⟨4, _⟩ => ⟨S1x1x1, .f32⟩
  | _, _ => ⟨S65536x24x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S3x24x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x24x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S65536x24x3_S3x24x65536_2_1_0 : S65536x24x3.Transposes [2, 1, 0] S3x24x65536
  bcast_S24x24_S24x24x1_0_1 : S24x24.BroadcastsInDim S24x24x1 (![0, 1] : Fin 2 → Fin S24x24x1.rank)
  inb_S1x1x1_S1x1x1_0_0_0 : ∀ a, (![0, 0, 0] : Fin 3 → Nat) a + S1x1x1.size a ≤ S1x1x1.size a
  h_S1x1x1 : 0 < S1x1x1.numel
  inb_S24x24x1_S24x24x1_0_0_0 : ∀ a, (![0, 0, 0] : Fin 3 → Nat) a + S24x24x1.size a ≤ S24x24x1.size a
  h_S24x24x1 : 0 < S24x24x1.numel
  shapeCasts_S24x24x1_S24x24x1 : S24x24x1.ShapeCasts S24x24x1
  inb_S3x24x1024_S1x24x1024_0_0_0 : ∀ a, (![0, 0, 0] : Fin 3 → Nat) a + S1x24x1024.size a ≤ S3x24x1024.size a
  h_S1x24x1024 : 0 < S1x24x1024.numel
  shapeCasts_S1x24x1024_S24x1024 : S1x24x1024.ShapeCasts S24x1024
  shapeCasts_S24x1024_S24x1x1024 : S24x1024.ShapeCasts S24x1x1024
  shapeCasts_S24x1024_S1x24x1024 : S24x1024.ShapeCasts S1x24x1024
  broadcasts_S24x1x1024_S24x24x1024 : S24x1x1024.Broadcasts S24x24x1024
  broadcasts_S1x24x1024_S24x24x1024 : S1x24x1024.Broadcasts S24x24x1024
  inb_S3x24x1024_S1x24x1024_1_0_0 : ∀ a, (![1, 0, 0] : Fin 3 → Nat) a + S1x24x1024.size a ≤ S3x24x1024.size a
  inb_S3x24x1024_S1x24x1024_2_0_0 : ∀ a, (![2, 0, 0] : Fin 3 → Nat) a + S1x24x1024.size a ≤ S3x24x1024.size a
  broadcasts_S24x24x1_S24x24x1024 : S24x24x1.Broadcasts S24x24x1024
  natLt_1_32 : 1 < 32
  shapeCasts_S1x1x1_S1x1x1 : S1x1x1.ShapeCasts S1x1x1
  reduces_S24x24x1024_S24x1024 : S24x24x1024.Reduces [1] S24x1024
  reduces_S24x1x1024_S1x1024 : S24x1x1024.Reduces [0] S1x1024
  shapeCasts_S1x1024_S1x1x1024 : S1x1024.ShapeCasts S1x1x1024
  reduces_S1x1x1024_S1x1 : S1x1x1024.Reduces [2] S1x1
  shapeCasts_S1x1_S1x1x1 : S1x1.ShapeCasts S1x1x1
  shapeCasts_S1x1x1_S_ : S1x1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x24x1024.size a ≤ S3x24x65536.size a
  hwx0_0 : ∀ i : grid0.Coords, EltTy.bits .f32 = 32 ∨ (Rect.block (s := S3x24x65536) S3x24x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x24x1.size a ≤ S24x24x1.size a
  hwx0_1 : ∀ i : grid0.Coords, EltTy.bits .f32 = 32 ∨ (Rect.block (s := S24x24x1) S24x24x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S1x1x1.size a
  hwx0_2 : ∀ i : grid0.Coords, EltTy.bits .f32 = 32 ∨ (Rect.block (s := S1x1x1) S1x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S1x1x1.size a
  hwx0_3 : ∀ i : grid0.Coords, EltTy.bits .f32 = 32 ∨ (Rect.block (s := S1x1x1) S1x1x1.size (cc0_transform_3 i) (hinb0_3 i)).WholeWords (EltTy.packing .f32)

variable [Facts₀]

abbrev win0_0 : Pipeline.Window sig grid0 :=
  Pipeline.Window.ofSpec (Memref.whole main_v0) S3x24x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S24x24x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x24x3 : Shape := ⟨3, ![65536, 24, 3]⟩
abbrev S24x24 : Shape := ⟨2, ![24, 24]⟩
abbrev S65536x24x1x3 : Shape := ⟨4, ![65536, 24, 1, 3]⟩
abbrev S65536x1x24x3 : Shape := ⟨4, ![65536, 1, 24, 3]⟩
abbrev S65536x24x24x3 : Shape := ⟨4, ![65536, 24, 24, 3]⟩
abbrev S_ : Shape := ⟨0, ![]⟩
abbrev S65536x24x24 : Shape := ⟨3, ![65536, 24, 24]⟩
abbrev S1x24x24 : Shape := ⟨3, ![1, 24, 24]⟩

abbrev nBuf : Space → Nat
  | .hbm => 44
  | .vmem => 0
  | .smem => 0
  | _ => 0

abbrev bufTy : (tb : Table) → Fin (tcTables nBuf tb) → BufTy
  | .hbm, ⟨0, _⟩ => ⟨S65536x24x3, .f32⟩
  | .hbm, ⟨1, _⟩ => ⟨S24x24, .i1⟩
  | .hbm, ⟨2, _⟩ => ⟨S65536x24x1x3, .f32⟩
  | .hbm, ⟨3, _⟩ => ⟨S65536x1x24x3, .f32⟩
  | .hbm, ⟨4, _⟩ => ⟨S65536x24x24x3, .f32⟩
  | .hbm, ⟨5, _⟩ => ⟨S65536x24x24x3, .f32⟩
  | .hbm, ⟨6, _⟩ => ⟨S65536x24x24x3, .f32⟩
  | .hbm, ⟨7, _⟩ => ⟨S65536x24x24x3, .f32⟩
  | .hbm, ⟨8, _⟩ => ⟨S_, .f32⟩
  | .hbm, ⟨9, _⟩ => ⟨S65536x24x24, .f32⟩
  | .hbm, ⟨10, _⟩ => ⟨S_, .f32⟩
  | .hbm, ⟨11, _⟩ => ⟨S_, .f32⟩
  | .hbm, ⟨12, _⟩ => ⟨S65536x24x24, .i1⟩
  | .hbm, ⟨13, _⟩ => ⟨S65536x24x24, .f32⟩
  | .hbm, ⟨14, _⟩ => ⟨S65536x24x24, .f32⟩
  | .hbm, ⟨15, _⟩ => ⟨S65536x24x24, .f32⟩
  | .hbm, ⟨16, _⟩ => ⟨S_, .f32⟩
  | .hbm, ⟨17, _⟩ => ⟨S65536x24x24, .f32⟩
  | .hbm, ⟨18, _⟩ => ⟨S65536x24x24, .i1⟩
  | .hbm, ⟨19, _⟩ => ⟨S1x24x24, .i1⟩
  | .hbm, ⟨20, _⟩ => ⟨S65536x24x24, .i1⟩
  | .hbm, ⟨21, _⟩ => ⟨S65536x24x24, .i1⟩
  | .hbm, ⟨22, _⟩ => ⟨S65536x24x24, .f32⟩
  | .hbm, ⟨23, _⟩ => ⟨S_, .f32⟩
  | .hbm, ⟨24, _⟩ => ⟨S65536x24x24, .f32⟩
  | .hbm, ⟨25, _⟩ => ⟨S65536x24x24, .f32⟩
  | .hbm, ⟨26, _⟩ => ⟨S65536x24x24, .f32⟩
  | .hbm, ⟨27, _⟩ => ⟨S65536x24x24, .f32⟩
  | .hbm, ⟨28, _⟩ => ⟨S65536x24x24, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S65536x24x24, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S65536x24x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_call1_v0 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  bcast_S65536x24x3_S65536x24x1x3_0_1_3 : S65536x24x3.BroadcastsInDim S65536x24x1x3 (![0, 1, 3] : Fin 3 → Fin S65536x24x1x3.rank)
  bcast_S65536x24x3_S65536x1x24x3_0_2_3 : S65536x24x3.BroadcastsInDim S65536x1x24x3 (![0, 2, 3] : Fin 3 → Fin S65536x1x24x3.rank)
  bcast_S65536x24x1x3_S65536x24x24x3_0_1_2_3 : S65536x24x1x3.BroadcastsInDim S65536x24x24x3 (![0, 1, 2, 3] : Fin 4 → Fin S65536x24x24x3.rank)
  bcast_S65536x1x24x3_S65536x24x24x3_0_1_2_3 : S65536x1x24x3.BroadcastsInDim S65536x24x24x3 (![0, 1, 2, 3] : Fin 4 → Fin S65536x24x24x3.rank)
  reducesTo_S65536x24x24x3_S65536x24x24_d3 : S65536x24x24x3.ReducesTo [3] S65536x24x24
  h_S_ : 0 < S_.numel
  bcast_S24x24_S65536x24x24_1_2 : S24x24.BroadcastsInDim S65536x24x24 (![1, 2] : Fin 2 → Fin S65536x24x24.rank)
  bcast_S_S65536x24x24 : S_.BroadcastsInDim S65536x24x24 (![] : Fin 0 → Fin S65536x24x24.rank)
  bcast_S24x24_S1x24x24_1_2 : S24x24.BroadcastsInDim S1x24x24 (![1, 2] : Fin 2 → Fin S1x24x24.rank)
  bcast_S1x24x24_S65536x24x24_0_1_2 : S1x24x24.BroadcastsInDim S65536x24x24 (![0, 1, 2] : Fin 3 → Fin S65536x24x24.rank)
  reducesTo_S65536x24x24_S_d0_1_2 : S65536x24x24.ReducesTo [0, 1, 2] S_

variable [Facts₀]

class Facts : Prop extends Facts₀ where

variable [Facts]
-- ==== Proof.Spec.lean ====
/-
  What both programs compute, stated once over the extended reals, with no program in sight.

  The input is an array `x` of 65536 samples of 24 points in 3-space.  For a sample `b` and an ordered pair of
  points `(i, j)` that counts (`keep`: neither point is point 0, the points differ, and the pair is not (2,3) or
  (3,2)) let `d` be the distance of the two points; a pair that does not count is given the dummy distance
  `sqrt 1`.  The pair is a hit when it counts and `d < 1/2`.  The result is the mean over the hits of
  `exp (-(2 d)^2)` — zero when there is no hit — plus a small constant (`tail`).

  Also here: the sum over a rank-3 index set as a triple sum, and the few identities of the extended reals by
  which the two programs' spellings of one pair's terms agree (a 0/1 factor against a choice; a product with 2
  against a quotient by 1/2; `0 - x` against `-x`).
-/
import Idealize.ShloMosaic.PureOps.Ideal
import Idealize.ShloMosaic.PureOps.Ideal.Laws
import Idealize.ShloMosaic.Lib.ValueIdx

noncomputable section

open scoped BigOperators

namespace Cert.PairLoss

open Idealize.ShloMosaic Idealize.ShloMosaic.ValueIdx

/-- The input's shape: samples, points, coordinates. -/
abbrev SPos : Shape := ⟨3, ![65536, 24, 3]⟩
/-- The result's shape: a scalar. -/
abbrev S0 : Shape := ⟨0, ![]⟩

/-- The ordered pairs of points that count. -/
def keep (i j : Fin 24) : Bool :=
  decide (i.val ≠ 0 ∧ j.val ≠ 0 ∧ i.val ≠ j.val ∧ ¬(i.val = 2 ∧ j.val = 3) ∧ ¬(i.val = 3 ∧ j.val = 2))

/-- The threshold 1/2 and the factor 2, as the float words the programs carry. -/
def half : EReal := Ideal.ofBits .f32 0x3F000000#32
def two : EReal := Ideal.ofBits .f32 0x40000000#32

/-- The squared distance of points `i` and `j` of sample `b`. -/
def sqd (x : SPos.Idx → EReal) (b : Fin 65536) (i j : Fin 24) : EReal :=
  ∑ c : Fin 3, (x (ix3 b i c) - x (ix3 b j c)) * (x (ix3 b i c) - x (ix3 b j c))

/-- Their distance; the dummy `sqrt 1` for a pair that does not count. -/
def dist (x : SPos.Idx → EReal) (b : Fin 65536) (i j : Fin 24) : EReal :=
  Ideal.sqrt (if keep i j = true then sqd x b i j else 1)

/-- 1 for a hit, else 0. -/
def hit (x : SPos.Idx → EReal) (b : Fin 65536) (i j : Fin 24) : EReal :=
  if keep i j = true ∧ dist x b i j < half then 1 else 0

/-- The pair's loss `exp (-(2 d)^2)`. -/
def loss (x : SPos.Idx → EReal) (b : Fin 65536) (i j : Fin 24) : EReal :=
  Ideal.exp (-((dist x b i j * two) * (dist x b i j * two)))

/-- The number of hits, and the hits' total loss. -/
def sumW (x : SPos.Idx → EReal) : EReal := ∑ b : Fin 65536, ∑ i : Fin 24, ∑ j : Fin 24, hit x b i j
def sumEW (x : SPos.Idx → EReal) : EReal := ∑ b : Fin 65536, ∑ i : Fin 24, ∑ j : Fin 24, loss x b i j * hit x b i j

/-- From the two totals to the result: their quotient when there is a hit, else zero; plus the constant. The two
    programs end with these same operations. -/
def tail (sw sew : FVec Ideal S0 .f32) : FVec Ideal S0 .f32 :=
  addf (select (cmpf .ogt sw (constant (F := Ideal) S0 .f32 0x00000000#32))
      (Host.divf (F := Ideal) sew (maximumf sw (constant (F := Ideal) S0 .f32 0x3F800000#32)))
      (constant (F := Ideal) S0 .f32 0x00000000#32))
    (constant (F := Ideal) S0 .f32 0x358637BD#32)

/-- The result as a function of the input array. -/
def G (x : FVec Ideal SPos .f32) : FVec Ideal S0 .f32 := tail (fun _ => sumW x) (fun _ => sumEW x)

/-! ## A rank-3 sum is a triple sum -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The float words that are evaluated -/

theorem ofBits_one : Ideal.ofBits .f32 0x3F800000#32 = 1 := by
  simp [Ideal.ofBits, Ideal.ieee, -EReal.coe_mul]; norm_num

theorem half_eq : half = ((1 / 2 : ℝ) : EReal) := by
  unfold half; simp [Ideal.ofBits, Ideal.ieee, -EReal.coe_mul]; norm_num

theorem two_eq : two = ((2 : ℝ) : EReal) := by
  unfold two; simp [Ideal.ofBits, Ideal.ieee, -EReal.coe_mul]; norm_num

/-- A quotient by 1/2 is the product with 2, at every extended real. -/
theorem div_half (d : EReal) : Ideal.div d half = d * two := by
  rw [half_eq, two_eq, Ideal.div_coe (by norm_num : (1 / 2 : ℝ) ≠ 0)]
  norm_num

/-! ## One pair's terms, as each program spells them -/

/-- The 0/1 factor of a pair. -/
def mv (k : Bool) : EReal := if k = true then 1 else 0

/-- `s · mv + (1 - mv)` is the choice between `s` and `1`. -/
theorem lerp_eq (k : Bool) (s : EReal) : s * mv k + (1 - mv k) = if k = true then s else 1 := by
  have h11 : (1 : EReal) - 1 = 0 := by
    rw [← EReal.coe_one, ← EReal.coe_sub, sub_self, EReal.coe_zero]
  cases k <;> simp [mv, h11]

/-- `mv · [d < 1/2]` is the hit. -/
theorem mv_mul_eq (k : Bool) (c : Prop) [Decidable c] :
    mv k * (if c then (1 : EReal) else 0) = if k = true ∧ c then 1 else 0 := by
  cases k <;> by_cases h : c <;> simp [mv, h]

theorem zero_sub' (a : EReal) : (0 : EReal) - a = -a := by
  rw [sub_eq_add_neg, zero_add]

end Cert.PairLoss

end
-- ==== Proof.Payload.lean ====
/-
  The arithmetic of one grid point's body, read entry by entry over the extended reals.

  The body's pure values are the imported payload definitions.  Here each is evaluated at an index: the mask is
  passed on unchanged; the threshold is the constant 1/2; the accumulators start from 0; the distance of points
  i and j at lane l is the square root of (((0 + d0²) + d1²) + d2²) · mask + (1 − mask), with dc the difference of
  the two points' c-th coordinates; the weight is mask · [distance < threshold]; and each accumulator's new value
  is its old value plus the total over the block, taken as three sums: over the second point (axis 1), then the
  first point (axis 0), then the lane (axis 2).

  The only laws used are: an elementwise operation at an index is the scalar operation on the entries; a broadcast
  reads the operand at 0 on its unit axis; a cast between shapes keeps the row-major position; a sum over one axis
  is a finite sum over that axis's coordinates.
-/
import proofs.«132461_j89618787598790_2_alg».proof.Proof.Gen.KernelIdeal.Skeleton
import proofs.«132461_j89618787598790_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The mask is passed on unchanged: a cast to the same shape. -/
theorem pay6_apply (v3 : Vec Ideal S24x24x1 .f32) (y : S24x24x1.Idx) : k0_pay6 (F := Ideal) v3 y = v3 y := by
  unfold k0_pay6
  rw [shapeCast_self]

/-- The threshold: the splat of the word of 1/2. -/
theorem pay8_apply (y : S24x24x1024.Idx) : k0_pay8 (F := Ideal) y = Cert.PairLoss.half := rfl

/-- The two accumulators start from the splat of the zero word. -/
theorem pay4_eq : (k0_pay4 (F := Ideal)) = fun _ => (0 : EReal) := by
  funext y
  exact Ideal.ofBits_zero_f32

theorem pay5_eq : (k0_pay5 (F := Ideal)) = fun _ => (0 : EReal) := by
  funext y
  exact Ideal.ofBits_zero_f32

/-! ## The layout operations of the body, read at an index -/

section Layout
variable {α : Type}

/-- A [24,24,1] array broadcast along the lanes reads, at (i, j, l), the operand at (i, j, 0). -/
theorem bcast_ij1 (x : S24x24x1.Idx → α) (h : S24x24x1.Broadcasts S24x24x1024) (i j : Fin 24) (l : Fin 1024) :
    broadcastTo S24x24x1024 x h (ix3 i j l) = x (ix3 i j 0) :=
  broadcastTo_apply x h _ _ fun a => match a with | ⟨0, _⟩ => rfl | ⟨1, _⟩ => rfl | ⟨2, _⟩ => rfl

/-- A [24,1,1024] array broadcast along the middle axis reads, at (i, j, l), the operand at (i, 0, l). -/
theorem bcast_i1l (x : S24x1x1024.Idx → α) (h : S24x1x1024.Broadcasts S24x24x1024) (i j : Fin 24) (l : Fin 1024) :
    broadcastTo S24x24x1024 x h (ix3 i j l) = x (ix3 i 0 l) :=
  broadcastTo_apply x h _ _ fun a => match a with | ⟨0, _⟩ => rfl | ⟨1, _⟩ => rfl | ⟨2, _⟩ => rfl

/-- A [1,24,1024] array broadcast along the leading axis reads, at (i, j, l), the operand at (0, j, l). -/
theorem bcast_1jl (x : S1x24x1024.Idx → α) (h : S1x24x1024.Broadcasts S24x24x1024) (i j : Fin 24) (l : Fin 1024) :
    broadcastTo S24x24x1024 x h (ix3 i j l) = x (ix3 0 j l) :=
  broadcastTo_apply x h _ _ fun a => match a with | ⟨0, _⟩ => rfl | ⟨1, _⟩ => rfl | ⟨2, _⟩ => rfl

/-- An [a, b] array cast to [a, 1, b] reads, at (i, u, l), the operand at (i, l): the two indices have the same
    row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (l : Fin b) :
    shapeCast ⟨3, ![a, 1, b]⟩ x h (ix3 i u l) = x (ix2 i l) :=
  shapeCast_apply x h _ _ (by
    have hu : u.val = 0 := by omega
    rw [Shape.rowMajor_val_three, Shape.rowMajor_val_two]
    show i.val * b + l.val = (i.val * 1 + u.val) * b + l.val
    rw [hu, Nat.mul_one, Nat.add_zero])

end Layout

/-! ## The weight -/

/-- The one-bit result of a comparison, widened and read as a signed integer, is 1 or 0. -/
theorem sitofp_olt (x y : EReal) :
    (FloatOps.sitofp (F := Ideal) .f32 ((FloatOps.cmpf (F := Ideal) (φ := .f32) .olt x y).setWidth 32) : EReal)
      = if x < y then (1 : EReal) else 0 := by
  rw [Ideal.cmpf_def]
  show (((((BitVec.ofBool (decide (x < y))).setWidth 32).toInt : ℝ)) : EReal) = _
  have ht : ((BitVec.ofBool true).setWidth 32).toInt = 1 := by decide
  have hf : ((BitVec.ofBool false).setWidth 32).toInt = 0 := by decide
  by_cases h : x < y
  · rw [if_pos h, decide_eq_true h, ht, Int.cast_one, EReal.coe_one]
  · rw [if_neg h, decide_eq_false h, hf, Int.cast_zero, EReal.coe_zero]

/-- the weight payload: mask · [dist < threshold] -/
theorem pay1_apply (v4 : FVec Ideal S24x24x1 .f32) (v39 v40 : FVec Ideal S24x24x1024 .f32) (i j : Fin 24) (l : Fin 1024) :
    k0_pay1 (F := Ideal) v4 v39 v40 (ix3 i j l)
      = v4 (ix3 i j 0) * (if v39 (ix3 i j l) < v40 (ix3 i j l) then (1 : EReal) else 0) := by
  unfold k0_pay1
  show broadcastTo S24x24x1024 v4 broadcasts_S24x24x1_S24x24x1024 (ix3 i j l)
      * FloatOps.sitofp (F := Ideal) .f32 ((FloatOps.cmpf (F := Ideal) (φ := .f32) .olt (v39 (ix3 i j l)) (v40 (ix3 i j l))).setWidth 32) = _
  rw [bcast_ij1, sitofp_olt]

/-! ## The distance -/

/-- Coordinate c of the first point of a pair, spread over the second: a [1,24,1024] block viewed [24,1,1024] and
    broadcast along the middle axis. -/
def rowOf (v : Vec Ideal S1x24x1024 .f32) : FVec Ideal S24x24x1024 .f32 :=
  broadcastTo S24x24x1024 (shapeCast S24x1x1024 (shapeCast S24x1024 v shapeCasts_S1x24x1024_S24x1024)
    shapeCasts_S24x1024_S24x1x1024) broadcasts_S24x1x1024_S24x24x1024

/-- Coordinate c of the second point of a pair, spread over the first: the block broadcast along the leading axis. -/
def colOf (v : Vec Ideal S1x24x1024 .f32) : FVec Ideal S24x24x1024 .f32 :=
  broadcastTo S24x24x1024 (shapeCast S1x24x1024 (shapeCast S24x1024 v shapeCasts_S1x24x1024_S24x1024)
    shapeCasts_S24x1024_S1x24x1024) broadcasts_S1x24x1024_S24x24x1024

theorem rowOf_apply (v : Vec Ideal S1x24x1024 .f32) (i j : Fin 24) (l : Fin 1024) :
    rowOf v (ix3 i j l) = v (ix3 0 i l) := by
  unfold rowOf
  rw [bcast_i1l, shapeCast_ab_a1b_apply, shapeCast_1ab_ab_apply]

theorem colOf_apply (v : Vec Ideal S1x24x1024 .f32) (i j : Fin 24) (l : Fin 1024) :
    colOf v (ix3 i j l) = v (ix3 0 j l) := by
  unfold colOf
  rw [bcast_1jl, shapeCast_ab_1ab_apply, shapeCast_1ab_ab_apply]

/-- the distance payload at points i, j and lane l: sqrt of ((((0 + d0²) + d1²) + d2²) · mask + (1 − mask)), dc the
    difference of the two points' c-th coordinates -/
theorem pay7_apply (v3 : Vec Ideal S24x24x1 .f32) (v6 v15 v24 : Vec Ideal S1x24x1024 .f32) (i j : Fin 24) (l : Fin 1024) :
    k0_pay7 (F := Ideal) v3 v6 v15 v24 (ix3 i j l)
      = Ideal.sqrt (((((0 : EReal) + (v6 (ix3 0 i l) - v6 (ix3 0 j l)) * (v6 (ix3 0 i l) - v6 (ix3 0 j l)))
            + (v15 (ix3 0 i l) - v15 (ix3 0 j l)) * (v15 (ix3 0 i l) - v15 (ix3 0 j l)))
            + (v24 (ix3 0 i l) - v24 (ix3 0 j l)) * (v24 (ix3 0 i l) - v24 (ix3 0 j l))) * v3 (ix3 i j 0)
          + (1 - v3 (ix3 i j 0))) := by
  unfold k0_pay7
  show Ideal.sqrt (((((Ideal.ofBits .f32 0x00000000#32)
            + (rowOf v6 (ix3 i j l) - colOf v6 (ix3 i j l)) * (rowOf v6 (ix3 i j l) - colOf v6 (ix3 i j l)))
            + (rowOf v15 (ix3 i j l) - colOf v15 (ix3 i j l)) * (rowOf v15 (ix3 i j l) - colOf v15 (ix3 i j l)))
            + (rowOf v24 (ix3 i j l) - colOf v24 (ix3 i j l)) * (rowOf v24 (ix3 i j l) - colOf v24 (ix3 i j l)))
              * broadcastTo S24x24x1024 (k0_pay6 (F := Ideal) v3) broadcasts_S24x24x1_S24x24x1024 (ix3 i j l)
          + broadcastTo S24x24x1024 (subf (broadcast S24x24x1 (Ideal.ofBits .f32 0x3F800000#32)) (k0_pay6 (F := Ideal) v3))
              broadcasts_S24x24x1_S24x24x1024 (ix3 i j l)) = _
  rw [rowOf_apply, colOf_apply, rowOf_apply, colOf_apply, rowOf_apply, colOf_apply, bcast_ij1, bcast_ij1]
  show Ideal.sqrt (_ * k0_pay6 (F := Ideal) v3 (ix3 i j 0)
      + (Ideal.ofBits .f32 0x3F800000#32 - k0_pay6 (F := Ideal) v3 (ix3 i j 0))) = _
  rw [pay6_apply, Ideal.ofBits_zero_f32, Cert.PairLoss.ofBits_one]

/-! ## The block's total: three sums, one axis each -/

/-- The one index of a [1,1,1] array. -/
theorem idx111 (y : S1x1x1.Idx) : y = ix3 (0 : Fin 1) (0 : Fin 1) (0 : Fin 1) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- The sum over the second point: axis 1 of a [24,24,1024] array. -/
theorem sum_axis1 (src : FVec Ideal S24x24x1024 .f32) (h : S24x24x1024.Reduces [1] S24x1024) (hφ : FKind.Formats .f32)
    (hacc : (0x00000000#32 : BitVec 32) = FKind.add.neutral .f32 hφ) (i : Fin 24) (l : Fin 1024) :
    multiReduction .add [1] S24x1024 src 0x00000000#32 h hφ hacc (ix2 i l) = ∑ j : Fin 24, src (ix3 i j l) := by
  refine (Ideal.multiReduction_add_single src 0x00000000#32 h hφ hacc (ix2 i l)).trans ?_
  refine Finset.sum_congr rfl fun j _ => congrArg src (funext fun a => Fin.ext ?_)
  match a with
  | ⟨0, _⟩ => rfl
  | ⟨1, _⟩ => rfl
  | ⟨2, _⟩ => rfl

/-- The sum over the first point: axis 0 of a [24,1,1024] array. -/
theorem sum_axis0 (src : FVec Ideal S24x1x1024 .f32) (h : S24x1x1024.Reduces [0] S1x1024) (hφ : FKind.Formats .f32)
    (hacc : (0x00000000#32 : BitVec 32) = FKind.add.neutral .f32 hφ) (u : Fin 1) (l : Fin 1024) :
    multiReduction .add [0] S1x1024 src 0x00000000#32 h hφ hacc (ix2 u l) = ∑ i : Fin 24, src (ix3 i u l) := by
  refine (Ideal.multiReduction_add_single src 0x00000000#32 h hφ hacc (ix2 u l)).trans ?_
  refine Finset.sum_congr rfl fun i _ => congrArg src (funext fun a => Fin.ext ?_)
  match a with
  | ⟨0, _⟩ => rfl
  | ⟨1, _⟩ => rfl
  | ⟨2, _⟩ => rfl

/-- The sum over the lanes: axis 2 of a [1,1,1024] array. -/
theorem sum_axis2 (src : FVec Ideal S1x1x1024 .f32) (h : S1x1x1024.Reduces [2] S1x1) (hφ : FKind.Formats .f32)
    (hacc : (0x00000000#32 : BitVec 32) = FKind.add.neutral .f32 hφ) (u u' : Fin 1) :
    multiReduction .add [2] S1x1 src 0x00000000#32 h hφ hacc (ix2 u u') = ∑ l : Fin 1024, src (ix3 u u' l) := by
  refine (Ideal.multiReduction_add_single src 0x00000000#32 h hφ hacc (ix2 u u')).trans ?_
  refine Finset.sum_congr rfl fun l _ => congrArg src (funext fun a => Fin.ext ?_)
  match a with
  | ⟨0, _⟩ => rfl
  | ⟨1, _⟩ => rfl
  | ⟨2, _⟩ => rfl

/-- The total of a [24,24,1024] array as the body takes it: summed over the second point, then the first, then the
    lanes, each result put back to rank 3 by a cast that keeps the row-major position. -/
def total (src : FVec Ideal S24x24x1024 .f32) : FVec Ideal S1x1x1 .f32 :=
  shapeCast S1x1x1
    (multiReduction .add [2] S1x1
      (shapeCast S1x1x1024
        (multiReduction .add [0] S1x1024
          (shapeCast S24x1x1024
            (multiReduction .add [1] S24x1024 src 0x00000000#32 reduces_S24x24x1024_S24x1024 (.inl rfl) rfl)
            shapeCasts_S24x1024_S24x1x1024)
          0x00000000#32 reduces_S24x1x1024_S1x1024 (.inl rfl) rfl)
        shapeCasts_S1x1024_S1x1x1024)
      0x00000000#32 reduces_S1x1x1024_S1x1 (.inl rfl) rfl)
    shapeCasts_S1x1_S1x1x1

theorem total_apply (src : FVec Ideal S24x24x1024 .f32) (u u' u'' : Fin 1) :
    total src (ix3 u u' u'') = ∑ l : Fin 1024, ∑ i : Fin 24, ∑ j : Fin 24, src (ix3 i j l) := by
  unfold total
  refine (shapeCast_ab_1ab_apply _ _ u u' u'').trans ?_
  refine (sum_axis2 _ _ _ _ u' u'').trans ?_
  refine Finset.sum_congr rfl fun l _ => ?_
  refine (shapeCast_ab_1ab_apply _ _ u' u'' l).trans ?_
  refine (sum_axis0 _ _ _ _ u'' l).trans ?_
  refine Finset.sum_congr rfl fun i _ => ?_
  refine (shapeCast_ab_a1b_apply _ _ i u'' l).trans ?_
  exact sum_axis1 _ _ _ _ i l

/-- the first accumulator's new value: old value + the block's total weight; the three lane reductions sum j (axis 1),
    then i (axis 0), then the lane l (axis 2) -/
theorem pay2_eq (v4 : FVec Ideal S24x24x1 .f32) (v39 v40 : FVec Ideal S24x24x1024 .f32) (v53 : Vec Ideal S1x1x1 .f32) :
    k0_pay2 (F := Ideal) v4 v39 v40 v53
      = fun _ => v53 (ix3 0 0 0) + ∑ l : Fin 1024, ∑ i : Fin 24, ∑ j : Fin 24, k0_pay1 (F := Ideal) v4 v39 v40 (ix3 i j l) := by
  unfold k0_pay2
  funext y
  rw [idx111 y]
  show shapeCast S1x1x1 v53 shapeCasts_S1x1x1_S1x1x1 (ix3 0 0 0) + total (k0_pay1 (F := Ideal) v4 v39 v40) (ix3 0 0 0) = _
  rw [shapeCast_self, total_apply]

/-- the second accumulator's: old value + the block's total of exp(0 − (2·dist)²) · weight -/
theorem pay3_eq (v4 : FVec Ideal S24x24x1 .f32) (v39 v40 : FVec Ideal S24x24x1024 .f32) (v63 : Vec Ideal S1x1x1 .f32) :
    k0_pay3 (F := Ideal) v4 v39 v40 v63
      = fun _ => v63 (ix3 0 0 0) + ∑ l : Fin 1024, ∑ i : Fin 24, ∑ j : Fin 24,
          Ideal.exp ((0 : EReal) - (v39 (ix3 i j l) * Cert.PairLoss.two) * (v39 (ix3 i j l) * Cert.PairLoss.two))
            * k0_pay1 (F := Ideal) v4 v39 v40 (ix3 i j l) := by
  unfold k0_pay3
  funext y
  rw [idx111 y]
  show shapeCast S1x1x1 v63 shapeCasts_S1x1x1_S1x1x1 (ix3 0 0 0)
      + total (fun y => Ideal.exp (Ideal.ofBits .f32 0x00000000#32 - (v39 y * Cert.PairLoss.two) * (v39 y * Cert.PairLoss.two))
          * k0_pay1 (F := Ideal) v4 v39 v40 y) (ix3 0 0 0) = _
  rw [shapeCast_self, total_apply, Ideal.ofBits_zero_f32]

end Cert.KernelIdeal.Pay

end
-- ==== Proof.Pieces.lean ====
/-
  What one grid point leaves in the two 1 x 1 x 1 accumulators, as a function of the blocks it reads.

  At a grid point the body reads an input block `x0` of extents 3 x 24 x 1024 (coordinate, point, sample lane)
  as its three coordinate planes, each of extents 1 x 24 x 1024, and the whole 24 x 24 x 1 block `x1` of 0/1
  pair weights.  From these it forms the 24 x 24 x 1024 array of pair distances (`k0_pay7`) and the threshold
  array (`k0_pay8`); the first accumulator receives its old value plus the total of the weighted hit indicators
  (`k0_pay2`), the second its old value plus the total of the weighted losses (`k0_pay3`).

  Two cases.  At the first point the accumulators are first overwritten with zero (`k0_pay4`, `k0_pay5`), so
  the old value that enters the sum is that zero; at every later point it is what the point before left
  (`xo2`, `xo3`).  In both cases the last store to an accumulator covers all of it, so what the accumulator
  holds afterwards is that store's value, and every load reads either a whole buffer (the weights, the
  accumulator) or one coordinate plane of the input block.
-/
import proofs.«132461_j89618787598790_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.ValueIdx

variable {F : FTy → Type} [FloatOps F]

/-- The three zero offsets of a rank-3 rectangle are the constant zero function. -/
theorem hz : (![0, 0, 0] : Fin 3 → Nat) = fun _ => 0 := funext fun a => by fin_cases a <;> rfl

/-! ## The coordinate planes of an input block -/

/-- Coordinate plane `k` of an input block: coordinate `k` of each of the 24 points at each of the 1024 sample
    lanes, kept with a leading axis of extent one. Its value at `(·, i, l)` depends on the block's entry
    `(k, i, l)` only. -/
def plane (x0 : Vec F S3x24x1024 .f32) (k : Fin 3) : Vec F S1x24x1024 .f32 :=
  fun j => x0 (ix3 k (j 1) (j 2))

/-- Plane `k` at point `i`, lane `l` is the block's entry `(k, i, l)`. -/
theorem plane_apply (x0 : Vec F S3x24x1024 .f32) (k : Fin 3) (i : Fin 24) (l : Fin 1024) :
    plane x0 k (ix3 0 i l) = x0 (ix3 k i l) := rfl

/-- Reading the block through the unit-stride rectangle of extents 1 x 24 x 1024 at offset `(k, 0, 0)` gives plane
    `k`: the rectangle places its index `(0, i, l)` at `(k + 0, 0 + i, 0 + l)`. -/
theorem ld_plane (x0 : Vec F S3x24x1024 .f32) (k : Fin 3) {off : Fin 3 → Nat} (h : off = ![k.val, 0, 0])
    (inb : ∀ a, off a + S1x24x1024.size a ≤ S3x24x1024.size a) :
    View.ld x0 (Rect.unit (s := S3x24x1024) off S1x24x1024.size inb) = plane x0 k := by
  subst h
  funext j
  show x0 _ = x0 _
  refine congrArg x0 (funext fun a => Fin.ext ?_)
  -- the leading axis has extent one, so its coordinate is 0
  have h0 : (j 0).val = 0 := Nat.lt_one_iff.mp (j 0).isLt
  match a with
  | ⟨0, _⟩ => show k.val + 1 * (j 0).val = k.val; omega
  | ⟨1, _⟩ => show 0 + 1 * (j 1).val = (j 1).val; omega
  | ⟨2, _⟩ => show 0 + 1 * (j 2).val = (j 2).val; omega

/-! ## A later point: the accumulators hold what the point before left -/

/-- At a point other than the first, the first accumulator ends at its old value `xo2` plus the point's total of
    weighted hit indicators: the one store to it covers it, its value read from the weights `x1`, the three
    planes of `x0`, and the accumulator's old contents. -/
theorem out_B_2 (c : Dev nD) (i : grid0.Coords) (a1 : Memref sig .tc .vmem S3x24x1024 .f32) (h1 : a1.IsWhole)
    (a2 : Memref sig .tc .vmem S24x24x1 .f32) (h2 : a2.IsWhole) (a3 : Memref sig .tc .vmem S1x1x1 .f32) (h3 : a3.IsWhole)
    (a4 : Memref sig .tc .vmem S1x1x1 .f32) (h4 : a4.IsWhole) (hc : ¬cond0_0 i)
    (x0 : Vec F S3x24x1024 .f32) (x1 : Vec F S24x24x1 .f32) (xo2 xo3 : Vec F S1x1x1 .f32) :
    out0_B_2 c i a1 h1 a2 h2 a3 h3 a4 h4 hc x0 x1 xo2 xo3
      = k0_pay2 (k0_pay6 x1) (k0_pay7 x1 (plane x0 0) (plane x0 1) (plane x0 2)) (k0_pay8 (F := F)) xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S24x24x1) hz, View.ld_unit_zero (S := S1x1x1) hz]
  rw [ld_plane x0 0 (off := ![0, 0, 0]) rfl, ld_plane x0 1 (off := ![1, 0, 0]) rfl, ld_plane x0 2 (off := ![2, 0, 0]) rfl]

/-- At a point other than the first, the second accumulator ends at its old value `xo3` plus the point's total of
    weighted losses, read from the same blocks. -/
theorem out_B_3 (c : Dev nD) (i : grid0.Coords) (a1 : Memref sig .tc .vmem S3x24x1024 .f32) (h1 : a1.IsWhole)
    (a2 : Memref sig .tc .vmem S24x24x1 .f32) (h2 : a2.IsWhole) (a3 : Memref sig .tc .vmem S1x1x1 .f32) (h3 : a3.IsWhole)
    (a4 : Memref sig .tc .vmem S1x1x1 .f32) (h4 : a4.IsWhole) (hc : ¬cond0_0 i)
    (x0 : Vec F S3x24x1024 .f32) (x1 : Vec F S24x24x1 .f32) (xo2 xo3 : Vec F S1x1x1 .f32) :
    out0_B_3 c i a1 h1 a2 h2 a3 h3 a4 h4 hc x0 x1 xo2 xo3
      = k0_pay3 (k0_pay6 x1) (k0_pay7 x1 (plane x0 0) (plane x0 1) (plane x0 2)) (k0_pay8 (F := F)) xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S24x24x1) hz, View.ld_unit_zero (S := S1x1x1) hz]
  rw [ld_plane x0 0 (off := ![0, 0, 0]) rfl, ld_plane x0 1 (off := ![1, 0, 0]) rfl, ld_plane x0 2 (off := ![2, 0, 0]) rfl]

/-! ## The first point: the accumulators are zeroed, then added to -/

/-- At the first point the first accumulator is overwritten with zero (`k0_pay4`) and then ends at that zero plus
    the point's total of weighted hit indicators: the second store covers the accumulator, and the old value it
    reads back is what the first, covering store wrote. -/
theorem out_A_2 (c : Dev nD) (i : grid0.Coords) (a1 : Memref sig .tc .vmem S3x24x1024 .f32) (h1 : a1.IsWhole)
    (a2 : Memref sig .tc .vmem S24x24x1 .f32) (h2 : a2.IsWhole) (a3 : Memref sig .tc .vmem S1x1x1 .f32) (h3 : a3.IsWhole)
    (a4 : Memref sig .tc .vmem S1x1x1 .f32) (h4 : a4.IsWhole) (hc : cond0_0 i)
    (x0 : Vec F S3x24x1024 .f32) (x1 : Vec F S24x24x1 .f32) :
    out0_A_2 c i a1 h1 a2 h2 a3 h3 a4 h4 hc x0 x1
      = k0_pay2 (k0_pay6 x1) (k0_pay7 x1 (plane x0 0) (plane x0 1) (plane x0 2)) (k0_pay8 (F := F)) (k0_pay4 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1x1) hz, View.readCov_unit_zero (S := S1x1x1) _ hz]
  simp only [View.readAt_eq_ld, h1.read_unread, h2.read_unread, View.ld_unit_zero (S := S24x24x1) hz]
  rw [ld_plane x0 0 (off := ![0, 0, 0]) rfl, ld_plane x0 1 (off := ![1, 0, 0]) rfl, ld_plane x0 2 (off := ![2, 0, 0]) rfl]

/-- At the first point the second accumulator is overwritten with zero (`k0_pay5`) and then ends at that zero plus
    the point's total of weighted losses. -/
theorem out_A_3 (c : Dev nD) (i : grid0.Coords) (a1 : Memref sig .tc .vmem S3x24x1024 .f32) (h1 : a1.IsWhole)
    (a2 : Memref sig .tc .vmem S24x24x1 .f32) (h2 : a2.IsWhole) (a3 : Memref sig .tc .vmem S1x1x1 .f32) (h3 : a3.IsWhole)
    (a4 : Memref sig .tc .vmem S1x1x1 .f32) (h4 : a4.IsWhole) (hc : cond0_0 i)
    (x0 : Vec F S3x24x1024 .f32) (x1 : Vec F S24x24x1 .f32) :
    out0_A_3 c i a1 h1 a2 h2 a3 h3 a4 h4 hc x0 x1
      = k0_pay3 (k0_pay6 x1) (k0_pay7 x1 (plane x0 0) (plane x0 1) (plane x0 2)) (k0_pay8 (F := F)) (k0_pay5 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1x1) hz, View.readCov_unit_zero (S := S1x1x1) _ hz]
  simp only [View.readAt_eq_ld, h1.read_unread, h2.read_unread, View.ld_unit_zero (S := S24x24x1) hz]
  rw [ld_plane x0 0 (off := ![0, 0, 0]) rfl, ld_plane x0 1 (off := ![1, 0, 0]) rfl, ld_plane x0 2 (off := ![2, 0, 0]) rfl]

end Cert.KernelIdeal.Pieces

end
-- ==== Proof.Blocks.lean ====
/-
  What the two input windows' blocks hold, at an index.

  The array the first window tiles is the input transposed (coordinate, point, sample); block t of it is its
  samples 1024 t .. 1024 t + 1023, so its entry (k, i, l) is the input at (1024 t + l, i, k).  The array of the
  second window is a 24 x 24 table of 0/1 words given a trailing unit axis; its one block is the whole array, and the
  table's entry (i, j) is 1 exactly when the ordered pair (i, j) counts.
-/
import proofs.«132461_j89618787598790_2_alg».proof.Proof.Gen.KernelIdeal.Frame
import proofs.«132461_j89618787598790_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx

/-! ## The two arrays as the region finds them -/

section
variable {F : FTy → Type} [FloatOps F]
variable (m : (ℓ : Loc nD τ sig) → Buf (Elt F) ℓ)

/-- The first window's array is the transposed input. -/
theorem V_v0 (c : Dev nD) :
    (V m c main_v0 : S3x24x65536.Idx → F .f32)
      = transpose S3x24x65536 [2, 1, 0] (m ((c.tc : Thread nD τ).loc main_arg0)) transposes_S65536x24x3_S3x24x65536_2_1_0 := by
  show StableHlo.after hostOps0 (fun b => m (c, b)) (Proc.devRef .tc main_v0) = _
  after_results

/-- The second window's array is the table with a trailing unit axis. -/
theorem V_v1 (c : Dev nD) :
    (V m c main_v1 : S24x24x1.Idx → F .f32)
      = broadcastInDim S24x24x1 ![0, 1] bcast_S24x24_S24x24x1_0_1
          (fun i : S24x24.Idx => (FloatOps.ofBits .f32 (lit0 (S24x24.rowMajor i)) : F .f32)) := by
  show StableHlo.after hostOps0 (fun b => m (c, b)) (Proc.devRef .tc main_v1) = _
  after_results
  rfl

/-! ## The first window: block t of the transposed input -/

/-- The first window's block index at point t is (0, 0, t); the second's is (0, 0, 0). -/
theorem index0 : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)

theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

/-- Entry (k, i, l) of block t sits in the array at (k, i, 1024 t + l): on each axis, block index times block size
    plus the coordinate inside the block. -/
theorem iblk0_read (c : Dev nD) (t : Fin cfg0.N) (k : Fin 3) (i : Fin 24) (l : Fin 1024)
    (h : t.val * 1024 + l.val < 65536) :
    (iblk m c 0 t : Vec F S3x24x1024 .f32) (ix3 k i l)
      = (V m c main_v0 : S3x24x65536.Idx → F .f32) (ix3 k i ⟨t.val * 1024 + l.val, h⟩) := by
  have hi := index0 t
  unfold iblk
  rw [View.read_apply]
  show V m c main_v0 _ = V m c main_v0 _
  refine congrArg (V m c main_v0) (funext fun a => Fin.ext ?_)
  match a with
  | ⟨0, _⟩ => show win0_0.index t 0 * 3 + 1 * k.val = k.val; rw [hi.1]; omega
  | ⟨1, _⟩ => show win0_0.index t 1 * 24 + 1 * i.val = i.val; rw [hi.2.1]; omega
  | ⟨2, _⟩ => show win0_0.index t 2 * 1024 + 1 * l.val = t.val * 1024 + l.val; rw [hi.2.2]; omega

/-- Block t of the transposed input at (coordinate k, point i, lane l) is the input at (sample 1024 t + l, point i,
    coordinate k). -/
theorem iblk0_apply (c : Dev nD) (t : Fin cfg0.N) (k : Fin 3) (i : Fin 24) (l : Fin 1024)
    (h : t.val * 1024 + l.val < 65536) :
    (iblk m c 0 t : Vec F S3x24x1024 .f32) (ix3 k i l)
      = m ((c.tc : Thread nD τ).loc main_arg0) (ix3 ⟨t.val * 1024 + l.val, h⟩ i k) := by
  rw [iblk0_read m c t k i l h, V_v0 m c]
  exact transpose_apply _ _ _ _ _ fun b => match b with | ⟨0, _⟩ => rfl | ⟨1, _⟩ => rfl | ⟨2, _⟩ => rfl

/-! ## The second window: the table of the pairs that count -/

/-- Entry (i, j, 0) of the one block sits in the array at (i, j, 0). -/
theorem iblk1_read (c : Dev nD) (t : Fin cfg0.N) (i j : Fin 24) :
    (iblk m c 1 t : Vec F S24x24x1 .f32) (ix3 i j 0)
      = (V m c main_v1 : S24x24x1.Idx → F .f32) (ix3 i j 0) := by
  have hi := index1 t
  unfold iblk
  rw [View.read_apply]
  show V m c main_v1 _ = V m c main_v1 _
  refine congrArg (V m c main_v1) (funext fun a => Fin.ext ?_)
  match a with
  | ⟨0, _⟩ => show win0_1.index t 0 * 24 + 1 * i.val = i.val; rw [hi.1]; omega
  | ⟨1, _⟩ => show win0_1.index t 1 * 24 + 1 * j.val = j.val; rw [hi.2.1]; omega
  | ⟨2, _⟩ => show win0_1.index t 2 * 1 + 1 * (0 : Fin 1).val = (0 : Fin 1).val; rw [hi.2.2]; omega

end

/-- The table's entry (i, j), at row-major position 24 i + j, is the word of 1 for a pair that counts and the word
    of 0 for one that does not. -/
theorem table_eq : ∀ i : Fin 24, ∀ j : Fin 24,
    lit0t (i.val * 24 + j.val) = if Cert.PairLoss.keep i j = true then 0x3F800000#32 else 0x00000000#32 := by
  decide +kernel

/-- The table read at the row-major position of (i, j). -/
theorem lit0_rowMajor (i j : Fin 24) : lit0 (S24x24.rowMajor (ix2 i j)) = lit0t (i.val * 24 + j.val) := by
  have e : (S24x24.rowMajor (ix2 i j)).val = i.val * 24 + j.val := by
    rw [Shape.rowMajor_val_two]
    rfl
  show lit0t (S24x24.rowMajor (ix2 i j)).val = _
  rw [e]

/-- The mask block at (i, j, 0) is 1 for a pair that counts, else 0. -/
theorem iblk1_apply (m : (ℓ : Loc nD τ sig) → Buf (Elt Ideal) ℓ) (c : Dev nD) (t : Fin cfg0.N) (i j : Fin 24) :
    (iblk m c 1 t : Vec Ideal S24x24x1 .f32) (ix3 i j 0) = Cert.PairLoss.mv (Cert.PairLoss.keep i j) := by
  rw [iblk1_read m c t i j, V_v1 m c]
  refine (broadcastInDim_apply ![0, 1] bcast_S24x24_S24x24x1_0_1 _ (ix3 i j 0) (ix2 i j)
    (fun a => match a with | ⟨0, _⟩ => rfl | ⟨1, _⟩ => rfl)).trans ?_
  show Ideal.ofBits .f32 (lit0 (S24x24.rowMajor (ix2 i j))) = _
  rw [lit0_rowMajor, table_eq]
  unfold Cert.PairLoss.mv
  cases Cert.PairLoss.keep i j
  · simp [Ideal.ofBits_zero_f32]
  · simp [Cert.PairLoss.ofBits_one]

end Cert.KernelIdeal.Blocks

end
-- ==== Proof.LibBlockSum.lean ====
/-
  A sum over the rows of an array cut into equal blocks.

  When T·B rows are cut into T consecutive blocks of B rows, row t·B + q is row q of block t, and a sum over all rows is
  the sum over the blocks of each block's own sum. A running total that starts at zero and adds one block's sum at a time
  therefore holds, after the first n blocks, the sum over the rows below n·B, and after all T blocks the sum over every row.
  Stated for any commutative additive monoid.
-/
import Mathlib.Data.Fintype.BigOperators
import Mathlib.Logic.Equiv.Fin.Basic

open scoped BigOperators

namespace Cert.LibBlockSum

variable {M : Type*} [AddCommMonoid M]

/-- Row q of block t lies among the T·B rows. -/
theorem row_lt {T B : Nat} (t : Fin T) (q : Fin B) : t.val * B + q.val < T * B :=
  calc t.val * B + q.val < t.val * B + B := Nat.add_lt_add_left q.isLt _
    _ = (t.val + 1) * B := (Nat.succ_mul _ _).symm
    _ ≤ T * B := Nat.mul_le_mul_right B t.isLt

/-- Row q of block t lies among the N rows when N = T·B. -/
theorem row_lt_of_eq {T B N : Nat} (h : T * B = N) (t : Fin T) (q : Fin B) : t.val * B + q.val < N :=
  h ▸ row_lt t q

/-- A sum over T·B rows is the sum over the T blocks of the sum over each block's B rows. -/
theorem sum_blocks {T B : Nat} (f : Fin (T * B) → M) :
    ∑ r : Fin (T * B), f r = ∑ t : Fin T, ∑ q : Fin B, f ⟨t.val * B + q.val, row_lt t q⟩ := by
  rw [← (finProdFinEquiv (m := T) (n := B)).sum_comp, Fintype.sum_prod_type]
  refine Finset.sum_congr rfl fun t _ => Finset.sum_congr rfl fun q _ => congrArg f (Fin.ext ?_)
  show q.val + B * t.val = t.val * B + q.val
  rw [Nat.mul_comm, Nat.add_comm]

/-- The same with the number of rows given as a literal N = T·B. -/
theorem sum_blocks_of_eq {T B N : Nat} (h : T * B = N) (f : Fin N → M) :
    ∑ r : Fin N, f r = ∑ t : Fin T, ∑ q : Fin B, f ⟨t.val * B + q.val, row_lt_of_eq h t q⟩ := by
  subst h
  exact sum_blocks f

/-- The total of the first n of T block values (a block past the last counts as zero). -/
def upTo {T : Nat} (g : Fin T → M) (n : Nat) : M :=
  ∑ k ∈ Finset.range n, if h : k < T then g ⟨k, h⟩ else 0

/-- Before any block the total is zero. -/
theorem upTo_zero {T : Nat} (g : Fin T → M) : upTo g 0 = 0 := Finset.sum_range_zero _

/-- Adding block n to the total of the first n blocks gives the total of the first n + 1. -/
theorem upTo_succ {T : Nat} (g : Fin T → M) (n : Nat) (hn : n < T) : upTo g (n + 1) = upTo g n + g ⟨n, hn⟩ := by
  unfold upTo
  rw [Finset.sum_range_succ, dif_pos hn]

/-- The first block alone. -/
theorem upTo_one {T : Nat} (g : Fin T → M) (h0 : 0 < T) : upTo g 1 = g ⟨0, h0⟩ := by
  rw [upTo_succ g 0 h0, upTo_zero, zero_add]

/-- After all T blocks the total is the sum over the blocks. -/
theorem upTo_all {T : Nat} (g : Fin T → M) : upTo g T = ∑ t : Fin T, g t := by
  unfold upTo
  rw [Finset.sum_fin_eq_sum_range]

/-- After all T blocks of B rows the running total of the blocks' sums is the sum over all N = T·B rows. -/
theorem upTo_blocks {T B N : Nat} (h : T * B = N) (f : Fin N → M) :
    upTo (fun t : Fin T => ∑ q : Fin B, f ⟨t.val * B + q.val, row_lt_of_eq h t q⟩) T = ∑ r : Fin N, f r := by
  rw [upTo_all, sum_blocks_of_eq h f]

end Cert.LibBlockSum
-- ==== Proof.Bridge.lean ====
/-
  The kernel's arithmetic against the specification's, with no program in sight.

  The kernel walks the 65536 samples in 64 blocks of 1024: sample 1024 t + l is lane l of block t.  For one pair of
  points of one sample it computes the same distance, hit and loss as the specification, spelt differently: the
  three squared coordinate differences are added one after another from zero, the choice between the squared
  distance and the dummy 1 is a blend with the 0/1 mask, the hit is the mask times the comparison's 0/1, and the
  negation is a subtraction from zero.  Each block's totals are sums over its lanes and pairs; a running total
  over the 64 blocks is the specification's sum over all samples.
-/
import proofs.«132461_j89618787598790_2_alg».proof.Proof.Spec
import proofs.«132461_j89618787598790_2_alg».proof.Proof.LibBlockSum

noncomputable section

open scoped BigOperators

namespace Cert.PairLoss

open Idealize.ShloMosaic Idealize.ShloMosaic.ValueIdx Cert.LibBlockSum

/-- Lane l of block t is a sample. -/
theorem lane_lt (t : Fin 64) (l : Fin 1024) : t.val * 1024 + l.val < 65536 :=
  row_lt_of_eq (T := 64) (B := 1024) (by norm_num) t l

/-- The sample at lane l of block t. -/
def smp (t : Fin 64) (l : Fin 1024) : Fin 65536 := ⟨t.val * 1024 + l.val, lane_lt t l⟩

/-- The kernel's distance of one pair: the coordinate differences squared and added from zero, blended with the
    mask, is the specification's distance. -/
theorem kdist_eq (x : SPos.Idx → EReal) (b : Fin 65536) (i j : Fin 24) :
    Ideal.sqrt (((((0 : EReal) + (x (ix3 b i 0) - x (ix3 b j 0)) * (x (ix3 b i 0) - x (ix3 b j 0)))
        + (x (ix3 b i 1) - x (ix3 b j 1)) * (x (ix3 b i 1) - x (ix3 b j 1)))
        + (x (ix3 b i 2) - x (ix3 b j 2)) * (x (ix3 b i 2) - x (ix3 b j 2))) * mv (keep i j)
      + (1 - mv (keep i j))) = dist x b i j := by
  unfold dist sqd
  rw [lerp_eq, Fin.sum_univ_three, zero_add]

/-- The kernel's hit: the mask times the comparison's 0/1. -/
theorem khit_eq (x : SPos.Idx → EReal) (b : Fin 65536) (i j : Fin 24) :
    mv (keep i j) * (if dist x b i j < half then (1 : EReal) else 0) = hit x b i j := by
  unfold hit
  exact mv_mul_eq _ _

/-- The kernel's loss: the square subtracted from zero, exponentiated. -/
theorem kloss_eq (x : SPos.Idx → EReal) (b : Fin 65536) (i j : Fin 24) :
    Ideal.exp ((0 : EReal) - (dist x b i j * two) * (dist x b i j * two)) = loss x b i j := by
  unfold loss
  rw [zero_sub']

/-- One block's number of hits, and its hits' total loss: over the lanes, then the pairs. -/
def blockW (x : SPos.Idx → EReal) (t : Fin 64) : EReal :=
  ∑ l : Fin 1024, ∑ i : Fin 24, ∑ j : Fin 24, hit x (smp t l) i j
def blockEW (x : SPos.Idx → EReal) (t : Fin 64) : EReal :=
  ∑ l : Fin 1024, ∑ i : Fin 24, ∑ j : Fin 24, loss x (smp t l) i j * hit x (smp t l) i j

/-- The running total over all 64 blocks is the total over all samples. -/
theorem upTo_blockW (x : SPos.Idx → EReal) : upTo (blockW x) 64 = sumW x := by
  unfold sumW
  exact upTo_blocks (T := 64) (B := 1024) (N := 65536) (by norm_num) (fun b => ∑ i : Fin 24, ∑ j : Fin 24, hit x b i j)

theorem upTo_blockEW (x : SPos.Idx → EReal) : upTo (blockEW x) 64 = sumEW x := by
  unfold sumEW
  exact upTo_blocks (T := 64) (B := 1024) (N := 65536) (by norm_num)
    (fun b => ∑ i : Fin 24, ∑ j : Fin 24, loss x b i j * hit x b i j)

end Cert.PairLoss

end
-- ==== Proof.Accum.lean ====
/-
  What the two accumulators hold after each grid point.

  At grid point t the kernel body adds to the first accumulator the block's number of hits and to the second the
  block's total loss over its hits; at point 0 both are first set to zero.  A block's totals depend only on the two
  input blocks the point reads: lane l of block t of the transposed input is sample 1024 t + l, and the mask block is
  the 0/1 table of the pairs that count.  So after point n the accumulators hold the running totals over blocks
  0 … n — by induction on the point — and after the last point the totals over all samples.
-/
import proofs.«132461_j89618787598790_2_alg».proof.Proof.Gen.KernelIdeal.Frame
import proofs.«132461_j89618787598790_2_alg».proof.Proof.Payload
import proofs.«132461_j89618787598790_2_alg».proof.Proof.Pieces
import proofs.«132461_j89618787598790_2_alg».proof.Proof.Blocks
import proofs.«132461_j89618787598790_2_alg».proof.Proof.Bridge

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.PairLoss Cert.LibBlockSum
open Cert.KernelIdeal.Pay Cert.KernelIdeal.Pieces Cert.KernelIdeal.Blocks

/-- A block's number of hits and total loss, as the body computes them from the two blocks it reads. -/
def bW (x0 : Vec Ideal S3x24x1024 .f32) (x1 : Vec Ideal S24x24x1 .f32) : EReal :=
  ∑ l : Fin 1024, ∑ i : Fin 24, ∑ j : Fin 24,
    k0_pay1 (F := Ideal) (k0_pay6 x1) (k0_pay7 x1 (plane x0 0) (plane x0 1) (plane x0 2)) (k0_pay8 (F := Ideal)) (ix3 i j l)

def bEW (x0 : Vec Ideal S3x24x1024 .f32) (x1 : Vec Ideal S24x24x1 .f32) : EReal :=
  ∑ l : Fin 1024, ∑ i : Fin 24, ∑ j : Fin 24,
    Ideal.exp ((0 : EReal) - (k0_pay7 (F := Ideal) x1 (plane x0 0) (plane x0 1) (plane x0 2) (ix3 i j l) * two)
        * (k0_pay7 (F := Ideal) x1 (plane x0 0) (plane x0 1) (plane x0 2) (ix3 i j l) * two))
      * k0_pay1 (F := Ideal) (k0_pay6 x1) (k0_pay7 x1 (plane x0 0) (plane x0 1) (plane x0 2)) (k0_pay8 (F := Ideal)) (ix3 i j l)

/-- One pair's distance as the body computes it, when the blocks hold sample block t and the mask table. -/
theorem kdist (x : SPos.Idx → EReal) (t : Fin 64) (x0 : Vec Ideal S3x24x1024 .f32) (x1 : Vec Ideal S24x24x1 .f32)
    (h0 : ∀ (k : Fin 3) (i : Fin 24) (l : Fin 1024), x0 (ix3 k i l) = x (ix3 (smp t l) i k))
    (h1 : ∀ i j : Fin 24, x1 (ix3 i j 0) = mv (keep i j)) (i j : Fin 24) (l : Fin 1024) :
    k0_pay7 (F := Ideal) x1 (plane x0 0) (plane x0 1) (plane x0 2) (ix3 i j l) = dist x (smp t l) i j := by
  rw [pay7_apply, plane_apply, plane_apply, plane_apply, plane_apply, plane_apply, plane_apply,
    h0, h0, h0, h0, h0, h0, h1]
  exact kdist_eq x (smp t l) i j

/-- and its hit. -/
theorem khit (x : SPos.Idx → EReal) (t : Fin 64) (x0 : Vec Ideal S3x24x1024 .f32) (x1 : Vec Ideal S24x24x1 .f32)
    (h0 : ∀ (k : Fin 3) (i : Fin 24) (l : Fin 1024), x0 (ix3 k i l) = x (ix3 (smp t l) i k))
    (h1 : ∀ i j : Fin 24, x1 (ix3 i j 0) = mv (keep i j)) (i j : Fin 24) (l : Fin 1024) :
    k0_pay1 (F := Ideal) (k0_pay6 x1) (k0_pay7 x1 (plane x0 0) (plane x0 1) (plane x0 2)) (k0_pay8 (F := Ideal)) (ix3 i j l)
      = hit x (smp t l) i j := by
  rw [pay1_apply, pay6_apply, pay8_apply, kdist x t x0 x1 h0 h1, h1]
  exact khit_eq x (smp t l) i j

theorem bW_eq (x : SPos.Idx → EReal) (t : Fin 64) (x0 : Vec Ideal S3x24x1024 .f32) (x1 : Vec Ideal S24x24x1 .f32)
    (h0 : ∀ (k : Fin 3) (i : Fin 24) (l : Fin 1024), x0 (ix3 k i l) = x (ix3 (smp t l) i k))
    (h1 : ∀ i j : Fin 24, x1 (ix3 i j 0) = mv (keep i j)) : bW x0 x1 = blockW x t := by
  unfold bW blockW
  refine Finset.sum_congr rfl fun l _ => Finset.sum_congr rfl fun i _ => Finset.sum_congr rfl fun j _ => ?_
  exact khit x t x0 x1 h0 h1 i j l

theorem bEW_eq (x : SPos.Idx → EReal) (t : Fin 64) (x0 : Vec Ideal S3x24x1024 .f32) (x1 : Vec Ideal S24x24x1 .f32)
    (h0 : ∀ (k : Fin 3) (i : Fin 24) (l : Fin 1024), x0 (ix3 k i l) = x (ix3 (smp t l) i k))
    (h1 : ∀ i j : Fin 24, x1 (ix3 i j 0) = mv (keep i j)) : bEW x0 x1 = blockEW x t := by
  unfold bEW blockEW
  refine Finset.sum_congr rfl fun l _ => Finset.sum_congr rfl fun i _ => Finset.sum_congr rfl fun j _ => ?_
  rw [khit x t x0 x1 h0 h1, kdist x t x0 x1 h0 h1, kloss_eq]

/-- The body's two stores, as "the old value plus the block's total". -/
theorem acc2 (x0 : Vec Ideal S3x24x1024 .f32) (x1 : Vec Ideal S24x24x1 .f32) (a : Vec Ideal S1x1x1 .f32) :
    k0_pay2 (F := Ideal) (k0_pay6 x1) (k0_pay7 x1 (plane x0 0) (plane x0 1) (plane x0 2)) (k0_pay8 (F := Ideal)) a
      = fun _ => a (ix3 0 0 0) + bW x0 x1 := pay2_eq _ _ _ _

theorem acc3 (x0 : Vec Ideal S3x24x1024 .f32) (x1 : Vec Ideal S24x24x1 .f32) (a : Vec Ideal S1x1x1 .f32) :
    k0_pay3 (F := Ideal) (k0_pay6 x1) (k0_pay7 x1 (plane x0 0) (plane x0 1) (plane x0 2)) (k0_pay8 (F := Ideal)) a
      = fun _ => a (ix3 0 0 0) + bEW x0 x1 := pay3_eq _ _ _ _

variable (m : (ℓ : Loc nD τ sig) → Buf (Elt Ideal) ℓ)

/-- The input array on core c. -/
abbrev X (c : Dev nD) : SPos.Idx → EReal := m ((c.tc : Thread nD τ).loc main_arg0)

/-- Grid point n as a block number. -/
def blk (n : ℕ) (h : n < cfg0.N) : Fin 64 := ⟨n, lt_of_lt_of_eq h N_0⟩

/-- At point n the two input blocks hold sample block n and the mask table, so the block's totals are the
    specification's. -/
theorem bW_at (c : Dev nD) (n : ℕ) (h : n < cfg0.N) :
    bW (iblk m c 0 ⟨n, h⟩) (iblk m c 1 ⟨n, h⟩) = blockW (X m c) (blk n h) :=
  bW_eq (X m c) (blk n h) _ _ (fun k i l => iblk0_apply m c ⟨n, h⟩ k i l (lane_lt (blk n h) l)) (fun i j => iblk1_apply m c ⟨n, h⟩ i j)

theorem bEW_at (c : Dev nD) (n : ℕ) (h : n < cfg0.N) :
    bEW (iblk m c 0 ⟨n, h⟩) (iblk m c 1 ⟨n, h⟩) = blockEW (X m c) (blk n h) :=
  bEW_eq (X m c) (blk n h) _ _ (fun k i l => iblk0_apply m c ⟨n, h⟩ k i l (lane_lt (blk n h) l)) (fun i j => iblk1_apply m c ⟨n, h⟩ i j)

/-- After point n the accumulators hold the running totals over blocks 0 … n: by induction on the point. -/
theorem outsAt_eq (c : Dev nD) : ∀ (n : ℕ) (h : n < cfg0.N),
    outsAt0 m c n h = ((fun _ => upTo (blockW (X m c)) (n + 1) : Vec Ideal S1x1x1 .f32),
      (fun _ => upTo (blockEW (X m c)) (n + 1) : Vec Ideal S1x1x1 .f32))
  | 0, h => by
    rw [outsAt0_A m c ⟨0, h⟩ rfl, out_A_2, out_A_3, acc2, acc3, pay4_eq, pay5_eq, bW_at m c 0 h, bEW_at m c 0 h,
      upTo_one _ (by norm_num : 0 < 64), upTo_one _ (by norm_num : 0 < 64)]
    simp only [zero_add]
    rfl
  | n + 1, h => by
    have hN : cfg0.N = 64 := N_0
    have hB : ¬(⟨n + 1, h⟩ : Fin cfg0.N).val % 64 = 0 := by dsimp only; omega
    rw [outsAt0_B m c ⟨n + 1, h⟩ hB, out_B_2, out_B_3, acc2, acc3, bW_at m c (n + 1) h, bEW_at m c (n + 1) h]
    show ((fun _ => (outsAt0 m c n _).1 (ix3 0 0 0) + _ : Vec Ideal S1x1x1 .f32), (fun _ => (outsAt0 m c n _).2 (ix3 0 0 0) + _ : Vec Ideal S1x1x1 .f32)) = _
    rw [outsAt_eq c n (Nat.lt_of_succ_lt h), upTo_succ (blockW (X m c)) (n + 1) (by omega), upTo_succ (blockEW (X m c)) (n + 1) (by omega)]
    rfl

/-- After the last point: the totals over all samples. -/
theorem outsAt_last (c : Dev nD) (h63 : 63 < cfg0.N) :
    outsAt0 m c 63 h63 = ((fun _ => sumW (X m c) : Vec Ideal S1x1x1 .f32), (fun _ => sumEW (X m c) : Vec Ideal S1x1x1 .f32)) := by
  rw [outsAt_eq m c 63 h63, upTo_blockW, upTo_blockEW]

end Cert.KernelIdeal.Accum

end
-- ==== Proof.Final.lean ====
/-
  From the two accumulators' last values to the kernel program's result.

  The region keeps two one-element accumulators (output windows 2 and 3).  Each is written back to its array once,
  after the last grid point, and the block written is the whole one-element array; so each array ends holding the
  accumulator's value after the last point.  The operations after the region read the two arrays as scalars and
  combine them: the quotient of the second by the first when the first is positive, else zero, plus a constant.
  Stated here for any given last values `R2`, `R3` of the accumulators, one pair per core.
-/
import proofs.«132461_j89618787598790_2_alg».proof.Proof.Gen.KernelIdeal.Frame
import proofs.«132461_j89618787598790_2_alg».proof.Proof.Spec
import Idealize.ShloMosaic.Lib.Pipeline.Value
import Idealize.ShloMosaic.Lib.Pipeline.FrameSuffix
import Idealize.ShloMosaic.Lib.ValueIdx
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The last grid point. -/
def t63 : Fin cfg0.N := ⟨63, by rw [show cfg0.N = 64 from N_0]; decide⟩

/-- The one write-back of window 2, at the last point, writes the accumulator's last value: the block written is
    the whole one-element array, read through zero offsets. -/
theorem flushed_eq2 (c : Dev nD) (R2 R3 : EReal)
    (hlast : outsAt0 m c 63 t63.isLt = ((fun _ => R2 : Vec Ideal S1x1x1 .f32), (fun _ => R3 : Vec Ideal S1x1x1 .f32)))
    (t : Fin cfg0.N) (hf : (cfg0.win 2).flush t = true) :
    (dats m 0 c).flushed 2 t
      = ((cfg0.win 2).blk t).view.read (Elt Ideal) (fun _ => R2 : Buf (Elt Ideal) ((c : Thread nD τ).loc main_v2_0)) := by
  have hN : cfg0.N = 64 := N_0
  have h63 : t.val = 63 := by have := (flush0_2 t).mp hf; have := t.isLt; omega
  obtain rfl : t = t63 := Fin.ext h63
  show (cfg0.win 2).cut (grid0.coords t63) ((dats m 0 c).after 2 t63) = _
  rw [after0_2]
  have e : (outsAt0 m c t63.val t63.isLt).1 = fun _ => R2 := congrArg Prod.fst hlast
  rw [e]
  have hz' : (fun a => win0_2.index t63 a * main_v2_0.ty.shape.size a) = fun _ => 0 := funext fun a => by fin_cases a <;> decide +kernel
  exact (Memref.read_access_unit_zero (Elt Ideal) main_v2_0 hz' (fun a => by rw [congrFun hz' a]; simp)
    (fun _ => R2 : Buf (Elt Ideal) ((c : Thread nD τ).loc main_v2_0))).symm

/-- So array 2 ends holding that value: the last point's block covers its one index. -/
theorem final2 (c : Dev nD) (R2 R3 : EReal)
    (hlast : outsAt0 m c 63 t63.isLt = ((fun _ => R2 : Vec Ideal S1x1x1 .f32), (fun _ => R3 : Vec Ideal S1x1x1 .f32))) :
    (dats m 0 c).arrAt 2 cfg0.N = (fun _ => R2 : Buf (Elt Ideal) ((c : Thread nD τ).loc main_v2_0)) :=
  (dats m 0 c).arrAt_eq_of_cover 2 (fun _ => R2) (flushed_eq2 m c R2 R3 hlast) fun i =>
    ⟨t63, (flush0_2 t63).mpr rfl, by
      show i ∈ ((View.whole main_v2_0).slice (win0_2.rect t63)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      match a with
      | ⟨0, _⟩ => show win0_2.index t63 0 * win0_2.size 0 ≤ (i 0 : Nat) ∧ (i 0 : Nat) < win0_2.index t63 0 * win0_2.size 0 + win0_2.xsize (grid0.coords t63) 0
                  rw [show win0_2.index t63 0 * win0_2.size 0 = 0 from by decide +kernel, show win0_2.xsize (grid0.coords t63) 0 = 1 from by decide +kernel]; omega
      | ⟨1, _⟩ => show win0_2.index t63 1 * win0_2.size 1 ≤ (i 1 : Nat) ∧ (i 1 : Nat) < win0_2.index t63 1 * win0_2.size 1 + win0_2.xsize (grid0.coords t63) 1
                  rw [show win0_2.index t63 1 * win0_2.size 1 = 0 from by decide +kernel, show win0_2.xsize (grid0.coords t63) 1 = 1 from by decide +kernel]; omega
      | ⟨2, _⟩ => show win0_2.index t63 2 * win0_2.size 2 ≤ (i 2 : Nat) ∧ (i 2 : Nat) < win0_2.index t63 2 * win0_2.size 2 + win0_2.xsize (grid0.coords t63) 2
                  rw [show win0_2.index t63 2 * win0_2.size 2 = 0 from by decide +kernel, show win0_2.xsize (grid0.coords t63) 2 = 1 from by decide +kernel]; omega⟩

/-- The one write-back of window 3, at the last point, writes the accumulator's last value: the block written is
    the whole one-element array, read through zero offsets. -/
theorem flushed_eq3 (c : Dev nD) (R2 R3 : EReal)
    (hlast : outsAt0 m c 63 t63.isLt = ((fun _ => R2 : Vec Ideal S1x1x1 .f32), (fun _ => R3 : Vec Ideal S1x1x1 .f32)))
    (t : Fin cfg0.N) (hf : (cfg0.win 3).flush t = true) :
    (dats m 0 c).flushed 3 t
      = ((cfg0.win 3).blk t).view.read (Elt Ideal) (fun _ => R3 : Buf (Elt Ideal) ((c : Thread nD τ).loc main_v2_1)) := by
  have hN : cfg0.N = 64 := N_0
  have h63 : t.val = 63 := by have := (flush0_3 t).mp hf; have := t.isLt; omega
  obtain rfl : t = t63 := Fin.ext h63
  show (cfg0.win 3).cut (grid0.coords t63) ((dats m 0 c).after 3 t63) = _
  rw [after0_3]
  have e : (outsAt0 m c t63.val t63.isLt).2 = fun _ => R3 := congrArg Prod.snd hlast
  rw [e]
  have hz' : (fun a => win0_3.index t63 a * main_v2_1.ty.shape.size a) = fun _ => 0 := funext fun a => by fin_cases a <;> decide +kernel
  exact (Memref.read_access_unit_zero (Elt Ideal) main_v2_1 hz' (fun a => by rw [congrFun hz' a]; simp)
    (fun _ => R3 : Buf (Elt Ideal) ((c : Thread nD τ).loc main_v2_1))).symm

/-- So array 3 ends holding that value: the last point's block covers its one index. -/
theorem final3 (c : Dev nD) (R2 R3 : EReal)
    (hlast : outsAt0 m c 63 t63.isLt = ((fun _ => R2 : Vec Ideal S1x1x1 .f32), (fun _ => R3 : Vec Ideal S1x1x1 .f32))) :
    (dats m 0 c).arrAt 3 cfg0.N = (fun _ => R3 : Buf (Elt Ideal) ((c : Thread nD τ).loc main_v2_1)) :=
  (dats m 0 c).arrAt_eq_of_cover 3 (fun _ => R3) (flushed_eq3 m c R2 R3 hlast) fun i =>
    ⟨t63, (flush0_3 t63).mpr rfl, by
      show i ∈ ((View.whole main_v2_1).slice (win0_3.rect t63)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      match a with
      | ⟨0, _⟩ => show win0_3.index t63 0 * win0_3.size 0 ≤ (i 0 : Nat) ∧ (i 0 : Nat) < win0_3.index t63 0 * win0_3.size 0 + win0_3.xsize (grid0.coords t63) 0
                  rw [show win0_3.index t63 0 * win0_3.size 0 = 0 from by decide +kernel, show win0_3.xsize (grid0.coords t63) 0 = 1 from by decide +kernel]; omega
      | ⟨1, _⟩ => show win0_3.index t63 1 * win0_3.size 1 ≤ (i 1 : Nat) ∧ (i 1 : Nat) < win0_3.index t63 1 * win0_3.size 1 + win0_3.xsize (grid0.coords t63) 1
                  rw [show win0_3.index t63 1 * win0_3.size 1 = 0 from by decide +kernel, show win0_3.xsize (grid0.coords t63) 1 = 1 from by decide +kernel]; omega
      | ⟨2, _⟩ => show win0_3.index t63 2 * win0_3.size 2 ≤ (i 2 : Nat) ∧ (i 2 : Nat) < win0_3.index t63 2 * win0_3.size 2 + win0_3.xsize (grid0.coords t63) 2
                  rw [show win0_3.index t63 2 * win0_3.size 2 = 0 from by decide +kernel, show win0_3.xsize (grid0.coords t63) 2 = 1 from by decide +kernel]; omega⟩

/-- What the operations after the region leave in the result buffer: the two arrays, read as scalars, combined by
    the same operations as the specification's `tail`. -/
theorem tail_eq (c : Dev nD) (R2 R3 : EReal) (hlast : outsAt0 m c 63 t63.isLt = ((fun _ => R2 : Vec Ideal S1x1x1 .f32), (fun _ => R3 : Vec Ideal S1x1x1 .f32))) :
    Pipeline.afterTail₀ cfgs (dats m) 0 (V0 m) [hostOps1, hostOps1_1, hostOps1_2] c main_v9
      = Cert.PairLoss.tail (fun _ => R2) (fun _ => R3) := by
  have a2 : Pipeline.withArrays (cfgs 0).spec c (V0 m c) (fun w => (dats m 0 c).arrAt w (cfgs 0).N) (Proc.devRef .tc main_v2_0)
      = (fun _ => R2 : Buf (Elt Ideal) ((c : Thread nD τ).loc main_v2_0)) :=
    (Pipeline.withArrays_arr spec0 launch0.win.arr_inj c _ _ 2).trans (final2 m c R2 R3 hlast)
  have a3 : Pipeline.withArrays (cfgs 0).spec c (V0 m c) (fun w => (dats m 0 c).arrAt w (cfgs 0).N) (Proc.devRef .tc main_v2_1)
      = (fun _ => R3 : Buf (Elt Ideal) ((c : Thread nD τ).loc main_v2_1)) :=
    (Pipeline.withArrays_arr spec0 launch0.win.arr_inj c _ _ 3).trans (final3 m c R2 R3 hlast)
  unfold Pipeline.afterTail₀
  simp only [hostOps1, hostOps1_1, hostOps1_2, List.flatten_cons, List.flatten_nil, List.append_nil, List.cons_append, List.nil_append]
  after_results
  rw [a2, a3]
  rfl

/-- THE RUN, READ. From any launch memory with zero counters every weakly fair execution of the program on the
    TensorCores terminates; given what the two accumulators hold after the last grid point (`R2`, `R3`, per core),
    the result buffer ends at the specification's `tail` of them and the argument array is unchanged. -/
theorem run_of (R2 R3 : Dev nD → EReal)
    (hlast : ∀ (c : Dev nD) (h63 : 63 < cfg0.N), outsAt0 m c 63 h63
      = ((fun _ => R2 c : Vec Ideal S1x1x1 .f32), (fun _ => R3 c : Vec Ideal S1x1x1 .f32))) :
    θ_run defs (onTc (τ := τ) (main (F := Ideal))) ⟨m, fun _ => 0, ρ⟩ (fun r => ∀ c : Dev nD,
      r.2.mem ((c.tc : Thread nD τ).loc main_v9) = Cert.PairLoss.tail (fun _ => R2 c) (fun _ => R3 c)
      ∧ r.2.mem ((c.tc : Thread nD τ).loc main_arg0) = m ((c.tc : Thread nD τ).loc main_arg0)) :=
  (θ_run defs _ _).mono (fun _ h c =>
    ⟨((h c).2 main_v9 (Pipeline.mem_restRefs_of main_v9 (by decide) (by decide))).trans
        (tail_eq m c (R2 c) (R3 c) (hlast c t63.isLt)),
      ((h c).2 main_arg0 (Pipeline.mem_restRefs_of main_arg0 (by decide) (by decide))).trans (W_main_arg0 m (dats m) c)⟩)
    (run_main m ρ)

end Cert.KernelIdeal.Final

end
-- ==== Proof.RefTerm.lean ====
/-
  The reference program's result as ONE pure term of its argument array: its host operations composed in order,
  the two outlined `where` calls inlined at their call sites.  In stages, each a whole-array function:
  the squared distances of all ordered pairs of points of every sample (`sqAll`), the masked distances
  (`distAll`), the 0/1 hits (`hitAll`), the losses (`lossAll`), and from the two totals the result (`term`).
-/
import proofs.«132461_j89618787598790_2_alg».proof.ReferenceIdeal
import proofs.«132461_j89618787598790_2_alg».proof.Proof.Gen.ReferenceIdeal

noncomputable section

namespace Cert.ReferenceIdeal.RefValue

open Idealize.ShloMosaic Cert.ReferenceIdeal Cert.ReferenceIdeal.Facts₀

variable {F : FTy → Type} [FloatOps F]

/-- The 24 x 24 table of the pairs that count, as the program's literal. -/
def maskTab : IVec S24x24 1 := fun i => lit0 (S24x24.rowMajor i)

/-- Every sample's squared distances: point `i` against point `j`, summed over the three coordinates from zero. -/
def sqAll (x : FVec F S65536x24x3 .f32) : FVec F S65536x24x24 .f32 :=
  let v0 : FVec F S65536x24x1x3 .f32 := broadcastInDim S65536x24x1x3 ![0, 1, 3] bcast_S65536x24x3_S65536x24x1x3_0_1_3 x
  let v1 : FVec F S65536x1x24x3 .f32 := broadcastInDim S65536x1x24x3 ![0, 2, 3] bcast_S65536x24x3_S65536x1x24x3_0_2_3 x
  let v2 : FVec F S65536x24x24x3 .f32 := broadcastInDim S65536x24x24x3 ![0, 1, 2, 3] bcast_S65536x24x1x3_S65536x24x24x3_0_1_2_3 v0
  let v3 : FVec F S65536x24x24x3 .f32 := broadcastInDim S65536x24x24x3 ![0, 1, 2, 3] bcast_S65536x1x24x3_S65536x24x24x3_0_1_2_3 v1
  let v4 : FVec F S65536x24x24x3 .f32 := subf v2 v3
  let v5 : FVec F S65536x24x24x3 .f32 := mulf v4 v4
  Host.reduceAdd v5 (constant S_ .f32 0x00000000#32) reducesTo_S65536x24x24x3_S65536x24x24_d3 h_S_

/-- The distances: the square root of the squared distance where the pair counts, of one elsewhere. -/
def distAll (x : FVec F S65536x24x3 .f32) : FVec F S65536x24x24 .f32 :=
  let w0 : FVec F S_ .f32 := id (constant S_ .f32 0x3F800000#32)
  let w1 : IVec S65536x24x24 1 := broadcastInDim S65536x24x24 ![1, 2] bcast_S24x24_S65536x24x24_1_2 maskTab
  let w2 : FVec F S65536x24x24 .f32 := broadcastInDim S65536x24x24 ![] bcast_S_S65536x24x24 w0
  Host.sqrt (select w1 (sqAll x) w2)

/-- The hits: the distance below one half, and the pair counts; as a float 0 or 1. -/
def hitAll (x : FVec F S65536x24x3 .f32) : FVec F S65536x24x24 .f32 :=
  let v9 : FVec F S65536x24x24 .f32 := broadcastInDim S65536x24x24 ![] bcast_S_S65536x24x24 (constant S_ .f32 0x3F000000#32)
  let v10 : IVec S65536x24x24 1 := cmpf .olt (distAll x) v9
  let v11 : IVec S1x24x24 1 := broadcastInDim S1x24x24 ![1, 2] bcast_S24x24_S1x24x24_1_2 maskTab
  let v12 : IVec S65536x24x24 1 := broadcastInDim S65536x24x24 ![0, 1, 2] bcast_S1x24x24_S65536x24x24_0_1_2 v11
  uitofp .f32 (andi v10 v12)

/-- The losses: the exponential of minus the square of the distance over one half. -/
def lossAll (x : FVec F S65536x24x3 .f32) : FVec F S65536x24x24 .f32 :=
  let v15 : FVec F S65536x24x24 .f32 := broadcastInDim S65536x24x24 ![] bcast_S_S65536x24x24 (constant S_ .f32 0x3F000000#32)
  let v16 : FVec F S65536x24x24 .f32 := Host.divf (distAll x) v15
  Host.exp (Host.negf (mulf v16 v16))

/-- The result: the hits' total loss over their number (at least one), zero when there is none, plus the constant. -/
def term (x : FVec F S65536x24x3 .f32) : FVec F S_ .f32 :=
  let v20 : FVec F S_ .f32 := Host.reduceAdd (hitAll x) (constant S_ .f32 0x00000000#32) reducesTo_S65536x24x24_S_d0_1_2 h_S_
  let v21 : IVec S_ 1 := cmpf .ogt v20 (constant S_ .f32 0x00000000#32)
  let v23 : FVec F S_ .f32 := Host.reduceAdd (mulf (lossAll x) (hitAll x)) (constant S_ .f32 0x00000000#32) reducesTo_S65536x24x24_S_d0_1_2 h_S_
  let v24 : FVec F S_ .f32 := maximumf v20 (constant S_ .f32 0x3F800000#32)
  let v25 : FVec F S_ .f32 := Host.divf v23 v24
  let v26 : FVec F S_ .f32 := select v21 v25 (id (constant S_ .f32 0x00000000#32))
  addf v26 (constant S_ .f32 0x358637BD#32)

end Cert.ReferenceIdeal.RefValue

end
-- ==== Proof.RefRun.lean ====
/-
  The reference program's run, read back: its straight line of host operations (the two outlined choices listed at
  their call sites, over the calls' own buffers), the fold of their results over the launch contents, and the
  statement that every execution ends with the result buffer at the composed term of the argument array and the
  argument array unchanged.
-/
import proofs.«132461_j89618787598790_2_alg».proof.Proof.RefTerm
import proofs.«132461_j89618787598790_2_alg».proof.Proof.Gen.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Facts₀

variable {F : FTy → Type} [FloatOps F]

/-- The program's operations in order.  After the table of counting pairs: the two broadcasts of the array against
    itself, their difference, its square and the sum over the coordinates; the choice between that sum and one (a
    conversion, two broadcasts, the select) and its square root; the comparison with one half, the table broadcast
    twice, the conjunction and its conversion to a float; the quotient by one half, its square, the negation, the
    exponential; the two totals; and from them the comparison with zero, the maximum with one, the quotient, the
    second choice (a conversion, the select) and the added constant. -/
abbrev ops : List (HloOp τ sig (Elt F)) :=
  [ nullary main_c (fun i => lit0 (S24x24.rowMajor i)),
    unary main_arg0 main_v0 (broadcastInDim S65536x24x1x3 ![0, 1, 3] bcast_S65536x24x3_S65536x24x1x3_0_1_3 : (⟨S65536x24x3, .f32⟩ : BufTy).Contents (Elt F) → (⟨S65536x24x1x3, .f32⟩ : BufTy).Contents (Elt F)),
    unary main_arg0 main_v1 (broadcastInDim S65536x1x24x3 ![0, 2, 3] bcast_S65536x24x3_S65536x1x24x3_0_2_3 : (⟨S65536x24x3, .f32⟩ : BufTy).Contents (Elt F) → (⟨S65536x1x24x3, .f32⟩ : BufTy).Contents (Elt F)),
    unary main_v0 main_v2 (broadcastInDim S65536x24x24x3 ![0, 1, 2, 3] bcast_S65536x24x1x3_S65536x24x24x3_0_1_2_3 : (⟨S65536x24x1x3, .f32⟩ : BufTy).Contents (Elt F) → (⟨S65536x24x24x3, .f32⟩ : BufTy).Contents (Elt F)),
    unary main_v1 main_v3 (broadcastInDim S65536x24x24x3 ![0, 1, 2, 3] bcast_S65536x1x24x3_S65536x24x24x3_0_1_2_3 : (⟨S65536x1x24x3, .f32⟩ : BufTy).Contents (Elt F) → (⟨S65536x24x24x3, .f32⟩ : BufTy).Contents (Elt F)),
    binary main_v2 main_v3 main_v4 (subf : (⟨S65536x24x24x3, .f32⟩ : BufTy).Contents (Elt F) → (⟨S65536x24x24x3, .f32⟩ : BufTy).Contents (Elt F) → (⟨S65536x24x24x3, .f32⟩ : BufTy).Contents (Elt F)),
    binary main_v4 main_v4 main_v5 (mulf : (⟨S65536x24x24x3, .f32⟩ : BufTy).Contents (Elt F) → (⟨S65536x24x24x3, .f32⟩ : BufTy).Contents (Elt F) → (⟨S65536x24x24x3, .f32⟩ : BufTy).Contents (Elt F)),
    nullary main_cst (constant S_ .f32 0x00000000#32),
    binary main_v5 main_cst main_v6 ((fun x v => Host.reduceAdd x v reducesTo_S65536x24x24x3_S65536x24x24_d3 h_S_) : (⟨S65536x24x24x3, .f32⟩ : BufTy).Contents (Elt F) → (⟨S_, .f32⟩ : BufTy).Contents (Elt F) → (⟨S65536x24x24, .f32⟩ : BufTy).Contents (Elt F)),
    nullary main_cst_0 (constant S_ .f32 0x3F800000#32),
    TRef.unary (.of main_cst_0 : TRef sig ⟨S_, .f32⟩) main_call0.v0 id,
    TRef.unary (.of main_c : TRef sig ⟨S24x24, .i1⟩) main_call0.v1 (broadcastInDim S65536x24x24 ![1, 2] bcast_S24x24_S65536x24x24_1_2),
    TRef.unary main_call0.v0 main_call0.v2 (broadcastInDim S65536x24x24 ![] bcast_S_S65536x24x24),
    TRef.ternary main_call0.v1 (.of main_v6 : TRef sig ⟨S65536x24x24, .f32⟩) main_call0.v2 main_call0.v3 select,
    unary main_v7 main_v8 (Host.sqrt : (⟨S65536x24x24, .f32⟩ : BufTy).Contents (Elt F) → (⟨S65536x24x24, .f32⟩ : BufTy).Contents (Elt F)),
    nullary main_cst_1 (constant S_ .f32 0x3F000000#32),
    unary main_cst_1 main_v9 (broadcastInDim S65536x24x24 ![] bcast_S_S65536x24x24 : (⟨S_, .f32⟩ : BufTy).Contents (Elt F) → (⟨S65536x24x24, .f32⟩ : BufTy).Contents (Elt F)),
    binary main_v8 main_v9 main_v10 (cmpf .olt : (⟨S65536x24x24, .f32⟩ : BufTy).Contents (Elt F) → (⟨S65536x24x24, .f32⟩ : BufTy).Contents (Elt F) → (⟨S65536x24x24, .i1⟩ : BufTy).Contents (Elt F)),
    unary main_c main_v11 (broadcastInDim S1x24x24 ![1, 2] bcast_S24x24_S1x24x24_1_2 : (⟨S24x24, .i1⟩ : BufTy).Contents (Elt F) → (⟨S1x24x24, .i1⟩ : BufTy).Contents (Elt F)),
    unary main_v11 main_v12 (broadcastInDim S65536x24x24 ![0, 1, 2] bcast_S1x24x24_S65536x24x24_0_1_2 : (⟨S1x24x24, .i1⟩ : BufTy).Contents (Elt F) → (⟨S65536x24x24, .i1⟩ : BufTy).Contents (Elt F)),
    binary main_v10 main_v12 main_v13 (andi : (⟨S65536x24x24, .i1⟩ : BufTy).Contents (Elt F) → (⟨S65536x24x24, .i1⟩ : BufTy).Contents (Elt F) → (⟨S65536x24x24, .i1⟩ : BufTy).Contents (Elt F)),
    unary main_v13 main_v14 (uitofp .f32 : (⟨S65536x24x24, .i1⟩ : BufTy).Contents (Elt F) → (⟨S65536x24x24, .f32⟩ : BufTy).Contents (Elt F)),
    nullary main_cst_2 (constant S_ .f32 0x3F000000#32),
    unary main_cst_2 main_v15 (broadcastInDim S65536x24x24 ![] bcast_S_S65536x24x24 : (⟨S_, .f32⟩ : BufTy).Contents (Elt F) → (⟨S65536x24x24, .f32⟩ : BufTy).Contents (Elt F)),
    binary main_v8 main_v15 main_v16 (Host.divf : (⟨S65536x24x24, .f32⟩ : BufTy).Contents (Elt F) → (⟨S65536x24x24, .f32⟩ : BufTy).Contents (Elt F) → (⟨S65536x24x24, .f32⟩ : BufTy).Contents (Elt F)),
    binary main_v16 main_v16 main_v17 (mulf : (⟨S65536x24x24, .f32⟩ : BufTy).Contents (Elt F) → (⟨S65536x24x24, .f32⟩ : BufTy).Contents (Elt F) → (⟨S65536x24x24, .f32⟩ : BufTy).Contents (Elt F)),
    unary main_v17 main_v18 (Host.negf : (⟨S65536x24x24, .f32⟩ : BufTy).Contents (Elt F) → (⟨S65536x24x24, .f32⟩ : BufTy).Contents (Elt F)),
    unary main_v18 main_v19 (Host.exp : (⟨S65536x24x24, .f32⟩ : BufTy).Contents (Elt F) → (⟨S65536x24x24, .f32⟩ : BufTy).Contents (Elt F)),
    nullary main_cst_3 (constant S_ .f32 0x00000000#32),
    binary main_v14 main_cst_3 main_v20 ((fun x v => Host.reduceAdd x v reducesTo_S65536x24x24_S_d0_1_2 h_S_) : (⟨S65536x24x24, .f32⟩ : BufTy).Contents (Elt F) → (⟨S_, .f32⟩ : BufTy).Contents (Elt F) → (⟨S_, .f32⟩ : BufTy).Contents (Elt F)),
    nullary main_cst_4 (constant S_ .f32 0x00000000#32),
    binary main_v20 main_cst_4 main_v21 (cmpf .ogt : (⟨S_, .f32⟩ : BufTy).Contents (Elt F) → (⟨S_, .f32⟩ : BufTy).Contents (Elt F) → (⟨S_, .i1⟩ : BufTy).Contents (Elt F)),
    binary main_v19 main_v14 main_v22 (mulf : (⟨S65536x24x24, .f32⟩ : BufTy).Contents (Elt F) → (⟨S65536x24x24, .f32⟩ : BufTy).Contents (Elt F) → (⟨S65536x24x24, .f32⟩ : BufTy).Contents (Elt F)),
    nullary main_cst_5 (constant S_ .f32 0x00000000#32),
    binary main_v22 main_cst_5 main_v23 ((fun x v => Host.reduceAdd x v reducesTo_S65536x24x24_S_d0_1_2 h_S_) : (⟨S65536x24x24, .f32⟩ : BufTy).Contents (Elt F) → (⟨S_, .f32⟩ : BufTy).Contents (Elt F) → (⟨S_, .f32⟩ : BufTy).Contents (Elt F)),
    nullary main_cst_6 (constant S_ .f32 0x3F800000#32),
    binary main_v20 main_cst_6 main_v24 (maximumf : (⟨S_, .f32⟩ : BufTy).Contents (Elt F) → (⟨S_, .f32⟩ : BufTy).Contents (Elt F) → (⟨S_, .f32⟩ : BufTy).Contents (Elt F)),
    binary main_v23 main_v24 main_v25 (Host.divf : (⟨S_, .f32⟩ : BufTy).Contents (Elt F) → (⟨S_, .f32⟩ : BufTy).Contents (Elt F) → (⟨S_, .f32⟩ : BufTy).Contents (Elt F)),
    nullary main_cst_7 (constant S_ .f32 0x00000000#32),
    TRef.unary (.of main_cst_7 : TRef sig ⟨S_, .f32⟩) main_call1.v0 id,
    TRef.ternary (.of main_v21 : TRef sig ⟨S_, .i1⟩) (.of main_v25 : TRef sig ⟨S_, .f32⟩) main_call1.v0 main_call1.v1 select,
    nullary main_cst_8 (constant S_ .f32 0x358637BD#32),
    binary main_v26 main_cst_8 main_v27 (addf : (⟨S_, .f32⟩ : BufTy).Contents (Elt F) → (⟨S_, .f32⟩ : BufTy).Contents (Elt F) → (⟨S_, .f32⟩ : BufTy).Contents (Elt F)) ]

set_option maxRecDepth 1024 in
/-- The program is that straight line: the two outlined functions unfolded at their calls, sequencing reassociated. -/
theorem main_eq (c : Dev nD) : main (F := F) c = seq ops := by
  simp only [main, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    binary_bufs_sub .., nullary_bufs_sub .., binary_bufs_sub .., nullary_bufs_sub .., unary_bufs_sub .., unary_bufs_sub ..,
    unary_bufs_sub .., ternary_bufs_sub .., unary_bufs_sub .., nullary_bufs_sub .., unary_bufs_sub .., binary_bufs_sub ..,
    unary_bufs_sub .., unary_bufs_sub .., binary_bufs_sub .., unary_bufs_sub .., nullary_bufs_sub .., unary_bufs_sub ..,
    binary_bufs_sub .., binary_bufs_sub .., unary_bufs_sub .., unary_bufs_sub .., nullary_bufs_sub .., binary_bufs_sub ..,
    nullary_bufs_sub .., binary_bufs_sub .., binary_bufs_sub .., nullary_bufs_sub .., binary_bufs_sub .., nullary_bufs_sub ..,
    binary_bufs_sub .., binary_bufs_sub .., nullary_bufs_sub .., unary_bufs_sub .., ternary_bufs_sub .., nullary_bufs_sub ..,
    binary_bufs_sub ..⟩

attribute [local irreducible] Host.reduceAdd Host.sqrt Host.exp Host.divf Host.negf select broadcastInDim in
set_option maxRecDepth 8192 in
/-- The fold at the result buffer is the composed term of the argument array: each operation's result is read at
    the buffer it writes and passed over at every other, so the value at the last buffer is the last operation's
    function of its operands' values, and so on back to the argument.  The reductions, the elementwise functions and
    the broadcasts stay closed throughout: the equation is between the two compositions, never inside an array. -/
theorem out_eq (V : Valuation τ sig (Elt F)) :
    after ops V (main_v27 : DevRef τ sig) = RefValue.term (V (main_arg0 : DevRef τ sig)) := by
  simp only [after_cons, after_nil]
  rfl

/-- No operation writes the argument's buffer. -/
theorem arg0_eq (V : Valuation τ sig (Elt F)) :
    after ops V (main_arg0 : DevRef τ sig) = V (main_arg0 : DevRef τ sig) := by
  simp only [after_cons, after_nil]
  rfl

/-- On the one device, for any float values, from any memory with zero counters: every weakly fair execution of the
    program terminates with the result buffer at the composed term of the argument array's launch contents, and the
    argument array unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v27) = Cert.ReferenceIdeal.RefValue.term (m ((c.tc : Thread nD τ).loc main_arg0))
      ∧ r.2.mem ((c.tc : Thread nD τ).loc main_arg0) = m ((c.tc : Thread nD τ).loc main_arg0)) :=
  (θ_run defs _ _).mono (fun _ h c => ⟨(h c main_v27).trans (out_eq (launchContents m c)),
      (h c main_arg0).trans (arg0_eq (launchContents m c))⟩)
    (run_seq scopedRefs_eq scopedSems_eq defs main (fun _ => ops) main_eq (fun _ => ops_sub) m ρ)

end Cert.ReferenceIdeal.RefRun

end
-- ==== Proof.RefRead.lean ====
/-
  The reference's term read index by index: each stage of the composed term (the squared distances, the masked
  distances, the hits, the losses) at sample `b` and the ordered pair of points `(i, j)` is the specification's
  value of that name, and the whole term is the specification's function of the input array.
-/
import proofs.«132461_j89618787598790_2_alg».proof.Proof.RefTerm
import proofs.«132461_j89618787598790_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.ReferenceIdeal.RefRead

open Idealize.ShloMosaic Idealize.ShloMosaic.ValueIdx Cert.ReferenceIdeal Cert.ReferenceIdeal.RefValue

/-! ## The squared distances -/

/-- Point `i`'s coordinates spread along the second point axis: at `(b, i, j, c)` the input at `(b, i, c)`. -/
theorem rowPt_apply (x : FVec Ideal S65536x24x3 .f32)
    (hA : S65536x24x3.BroadcastsInDim S65536x24x1x3 (![0, 1, 3] : Fin 3 → Fin S65536x24x1x3.rank))
    (hB : S65536x24x1x3.BroadcastsInDim S65536x24x24x3 (![0, 1, 2, 3] : Fin 4 → Fin S65536x24x24x3.rank))
    (b : Fin 65536) (i j : Fin 24) (c : Fin 3) :
    broadcastInDim S65536x24x24x3 ![0, 1, 2, 3] hB (broadcastInDim S65536x24x1x3 ![0, 1, 3] hA x) (ix4 b i j c)
      = x (ix3 b i c) := by
  refine (broadcastInDim_apply _ hB _ (ix4 b i j c) (ix4 b i (0 : Fin 1) c) ?_).trans ?_
  · intro a; fin_cases a <;> rfl
  refine (broadcastInDim_apply _ hA _ (ix4 b i (0 : Fin 1) c) (ix3 b i c) ?_)
  intro a; fin_cases a <;> rfl

/-- Point `j`'s coordinates spread along the first point axis: at `(b, i, j, c)` the input at `(b, j, c)`. -/
theorem colPt_apply (x : FVec Ideal S65536x24x3 .f32)
    (hA : S65536x24x3.BroadcastsInDim S65536x1x24x3 (![0, 2, 3] : Fin 3 → Fin S65536x1x24x3.rank))
    (hB : S65536x1x24x3.BroadcastsInDim S65536x24x24x3 (![0, 1, 2, 3] : Fin 4 → Fin S65536x24x24x3.rank))
    (b : Fin 65536) (i j : Fin 24) (c : Fin 3) :
    broadcastInDim S65536x24x24x3 ![0, 1, 2, 3] hB (broadcastInDim S65536x1x24x3 ![0, 2, 3] hA x) (ix4 b i j c)
      = x (ix3 b j c) := by
  refine (broadcastInDim_apply _ hB _ (ix4 b i j c) (ix4 b (0 : Fin 1) j c) ?_).trans ?_
  · intro a; fin_cases a <;> rfl
  refine (broadcastInDim_apply _ hA _ (ix4 b (0 : Fin 1) j c) (ix3 b j c) ?_)
  intro a; fin_cases a <;> rfl

/-- One coordinate's squared difference of the two points. -/
theorem sqDiff_apply (x : FVec Ideal S65536x24x3 .f32)
    (hA : S65536x24x3.BroadcastsInDim S65536x24x1x3 (![0, 1, 3] : Fin 3 → Fin S65536x24x1x3.rank))
    (hB : S65536x24x1x3.BroadcastsInDim S65536x24x24x3 (![0, 1, 2, 3] : Fin 4 → Fin S65536x24x24x3.rank))
    (hA' : S65536x24x3.BroadcastsInDim S65536x1x24x3 (![0, 2, 3] : Fin 3 → Fin S65536x1x24x3.rank))
    (hB' : S65536x1x24x3.BroadcastsInDim S65536x24x24x3 (![0, 1, 2, 3] : Fin 4 → Fin S65536x24x24x3.rank))
    (b : Fin 65536) (i j : Fin 24) (c : Fin 3) :
    mulf
        (subf (broadcastInDim S65536x24x24x3 ![0, 1, 2, 3] hB (broadcastInDim S65536x24x1x3 ![0, 1, 3] hA x))
          (broadcastInDim S65536x24x24x3 ![0, 1, 2, 3] hB' (broadcastInDim S65536x1x24x3 ![0, 2, 3] hA' x)))
        (subf (broadcastInDim S65536x24x24x3 ![0, 1, 2, 3] hB (broadcastInDim S65536x24x1x3 ![0, 1, 3] hA x))
          (broadcastInDim S65536x24x24x3 ![0, 1, 2, 3] hB' (broadcastInDim S65536x1x24x3 ![0, 2, 3] hA' x)))
        (ix4 b i j c)
      = (x (ix3 b i c) - x (ix3 b j c)) * (x (ix3 b i c) - x (ix3 b j c)) := by
  rw [mulf_apply, subf_apply, rowPt_apply, colPt_apply]

/-- The index over `(b, i, j)` with coordinate `c` on the summed (last) axis is `(b, i, j, c)`. -/
theorem lift_last (h : S65536x24x24x3.Reduces [3] S65536x24x24) (b : Fin 65536) (i j : Fin 24) (c : Fin 3) :
    h.lift (ix3 b i j) c = ix4 b i j c := by
  funext a; fin_cases a <;> rfl

/-- The squared distance: the host sum over the coordinate axis, from zero, of the squared differences. -/
theorem sqAll_apply (x : FVec Ideal S65536x24x3 .f32) (b : Fin 65536) (i j : Fin 24) :
    sqAll (F := Ideal) x (ix3 b i j) = Cert.PairLoss.sqd x b i j := by
  unfold sqAll Cert.PairLoss.sqd
  refine (hostReduceAdd_apply _ _ _ _ (ix3 b i j)).trans ?_
  refine (Ideal.hostReduceAdd_single _ (by decide) _ _ (ix3 b i j)).trans ?_
  rw [constant_apply, Ideal.ofBits_zero_f32, zero_add]
  refine Finset.sum_congr rfl fun (c : Fin 3) _ => ?_
  exact (congrArg _ (lift_last _ b i j c)).trans (sqDiff_apply x _ _ _ _ b i j c)

/-! ## The table of the pairs that count -/

/-- The literal table at `(i, j)` is the word 1 exactly for the pairs that count. -/
theorem maskTab_eq : ∀ i j : Fin 24, maskTab (ix2 i j) = if Cert.PairLoss.keep i j = true then 1#1 else 0#1 := by
  decide +kernel

/-- The table spread over the samples reads the table at the pair. -/
theorem maskAll_apply (h : S24x24.BroadcastsInDim S65536x24x24 (![1, 2] : Fin 2 → Fin S65536x24x24.rank))
    (b : Fin 65536) (i j : Fin 24) :
    broadcastInDim S65536x24x24 ![1, 2] h maskTab (ix3 b i j) = maskTab (ix2 i j) := by
  refine broadcastInDim_apply _ h _ (ix3 b i j) (ix2 i j) ?_
  intro a; fin_cases a <;> rfl

/-- The same through a unit leading axis first. -/
theorem maskAll2_apply (h1 : S24x24.BroadcastsInDim S1x24x24 (![1, 2] : Fin 2 → Fin S1x24x24.rank))
    (h2 : S1x24x24.BroadcastsInDim S65536x24x24 (![0, 1, 2] : Fin 3 → Fin S65536x24x24.rank))
    (b : Fin 65536) (i j : Fin 24) :
    broadcastInDim S65536x24x24 ![0, 1, 2] h2 (broadcastInDim S1x24x24 ![1, 2] h1 maskTab) (ix3 b i j)
      = maskTab (ix2 i j) := by
  refine (broadcastInDim_apply _ h2 _ (ix3 b i j) (ix3 (0 : Fin 1) i j) ?_).trans ?_
  · intro a; fin_cases a <;> rfl
  refine broadcastInDim_apply _ h1 _ (ix3 (0 : Fin 1) i j) (ix2 i j) ?_
  intro a; fin_cases a <;> rfl

/-! ## The elementwise host operations at an index -/

theorem hostSqrt_apply {s : Shape} (a : FVec Ideal s .f32) (k : s.Idx) : Host.sqrt a k = Ideal.sqrt (a k) := rfl
theorem hostExp_apply {s : Shape} (a : FVec Ideal s .f32) (k : s.Idx) : Host.exp a k = Ideal.exp (a k) := rfl
theorem hostNegf_apply {s : Shape} (a : FVec Ideal s .f32) (k : s.Idx) : Host.negf a k = -(a k) := rfl
theorem uitofp_apply {s : Shape} (a : IVec s 1) (k : s.Idx) :
    (uitofp .f32 a : FVec Ideal s .f32) k = (((a k).toNat : ℝ) : EReal) := rfl
theorem andi_apply {s : Shape} (a c : IVec s 1) (k : s.Idx) : andi a c k = a k &&& c k := rfl

/-- A comparison word and a table word, joined and read as a number: 1 when both hold, else 0. -/
theorem hitWord (k : Bool) (c : Prop) [Decidable c] :
    ((((BitVec.ofBool (decide c)) &&& (if k = true then 1#1 else 0#1)).toNat : ℝ) : EReal)
      = if k = true ∧ c then 1 else 0 := by
  cases k <;> by_cases h : c <;> simp [h]

/-! ## The stages -/

/-- The distance: the root of the squared distance for a pair that counts, of one otherwise. -/
theorem distAll_apply (x : FVec Ideal S65536x24x3 .f32) (b : Fin 65536) (i j : Fin 24) :
    distAll (F := Ideal) x (ix3 b i j) = Cert.PairLoss.dist x b i j := by
  unfold distAll Cert.PairLoss.dist
  rw [hostSqrt_apply, select_apply, maskAll_apply, maskTab_eq, sqAll_apply, broadcastInDim_scalar_apply, id_eq,
    constant_apply, Cert.PairLoss.ofBits_one]
  refine congrArg Ideal.sqrt ?_
  cases Cert.PairLoss.keep i j
  · exact select_zero _ _
  · exact select_one _ _

/-- The hit: the pair counts and its distance is below one half. -/
theorem hitAll_apply (x : FVec Ideal S65536x24x3 .f32) (b : Fin 65536) (i j : Fin 24) :
    hitAll (F := Ideal) x (ix3 b i j) = Cert.PairLoss.hit x b i j := by
  unfold hitAll Cert.PairLoss.hit
  rw [uitofp_apply, andi_apply, cmpf_apply, maskAll2_apply, maskTab_eq, distAll_apply, broadcastInDim_scalar_apply,
    constant_apply]
  exact hitWord (Cert.PairLoss.keep i j) (Cert.PairLoss.dist x b i j < Cert.PairLoss.half)

/-- The loss: the exponential of minus the square of twice the distance. -/
theorem lossAll_apply (x : FVec Ideal S65536x24x3 .f32) (b : Fin 65536) (i j : Fin 24) :
    lossAll (F := Ideal) x (ix3 b i j) = Cert.PairLoss.loss x b i j := by
  unfold lossAll Cert.PairLoss.loss
  rw [hostExp_apply, hostNegf_apply, mulf_apply, hostDivf_apply, distAll_apply, broadcastInDim_scalar_apply,
    constant_apply]
  exact congrArg (fun d => Ideal.exp (-(d * d))) (Cert.PairLoss.div_half (Cert.PairLoss.dist x b i j))

/-! ## The two totals and the result -/

/-- A host sum over all three axes, from zero, is the triple sum. -/
theorem total_eq (v : FVec Ideal S65536x24x24 .f32) (h : S65536x24x24.ReducesTo [0, 1, 2] S_) (hu : 0 < S_.numel) :
    Host.reduceAdd (F := Ideal) v (constant S_ .f32 0x00000000#32) h hu
      = fun _ => ∑ b : Fin 65536, ∑ i : Fin 24, ∑ j : Fin 24, v (ix3 b i j) := by
  funext k
  refine (hostReduceAdd_apply _ _ _ _ k).trans ?_
  refine (Ideal.hostReduceAdd_total h (fun a => a.elim0) _ _ k).trans ?_
  rw [constant_apply, Ideal.ofBits_zero_f32, zero_add]
  exact Cert.PairLoss.sum_idx3 v

/-- The reference's term is the specification's function of the input. -/
theorem term_eq (x : FVec Ideal S65536x24x3 .f32) : term (F := Ideal) x = Cert.PairLoss.G x := by
  have hW : ∀ (h : S65536x24x24.ReducesTo [0, 1, 2] S_) (hu : 0 < S_.numel),
      Host.reduceAdd (F := Ideal) (hitAll x) (constant S_ .f32 0x00000000#32) h hu
        = fun _ => Cert.PairLoss.sumW x := by
    intro h hu
    refine (total_eq _ h hu).trans (funext fun _ => ?_)
    unfold Cert.PairLoss.sumW
    exact Finset.sum_congr rfl fun b _ => Finset.sum_congr rfl fun i _ => Finset.sum_congr rfl fun j _ =>
      hitAll_apply x b i j
  have hEW : ∀ (h : S65536x24x24.ReducesTo [0, 1, 2] S_) (hu : 0 < S_.numel),
      Host.reduceAdd (F := Ideal) (mulf (lossAll x) (hitAll x)) (constant S_ .f32 0x00000000#32) h hu
        = fun _ => Cert.PairLoss.sumEW x := by
    intro h hu
    refine (total_eq _ h hu).trans (funext fun _ => ?_)
    unfold Cert.PairLoss.sumEW
    refine Finset.sum_congr rfl fun b _ => Finset.sum_congr rfl fun i _ => Finset.sum_congr rfl fun j _ => ?_
    rw [mulf_apply, lossAll_apply, hitAll_apply]
  unfold term Cert.PairLoss.G
  rw [hW, hEW]
  rfl

end Cert.ReferenceIdeal.RefRead

end
-- ==== Proof.lean ====
/-
  The certificate's claim (Defs.lean: `Cert.Claim`).

  Both idealized programs compute, from an array of 65536 samples of 24 points in 3-space, the mean of
  `exp (-(2 d)^2)` over the ordered pairs of points that count and lie closer than 1/2, plus a small constant
  (Proof/Spec.lean states this once as `Cert.PairLoss.G`).
    · The kernel walks the samples in 64 blocks of 1024 and keeps two running totals — the number of hits and
      their total loss — which after the last block are the totals over all samples (Proof/Accum.lean, by
      induction on the block over the body's payloads read at an index, Proof/Payload.lean, Proof/Pieces.lean,
      Proof/Blocks.lean; the sums re-associated in Proof/Bridge.lean); the host operations after the region turn the
      two totals into the result (Proof/Final.lean).
    · The reference computes every pair of every sample at once and sums; its run is Proof/RefRun.lean and its
      term read index by index is the same function (Proof/RefRead.lean).
  The two agree entry by entry over the extended reals: only the order of the sums and the spelling of one pair's
  terms differ (a blend with a 0/1 mask against a choice, a product with 2 against a quotient by 1/2, a
  subtraction from zero against a negation), and none of these laws needs the inputs finite.
  The three frames are the generated frame runs (the reference's: its run with the result dropped); the ideal
  pass rewrote nothing, so `preserves` is `True`.
-/
import proofs.«132461_j89618787598790_2_alg».proof.Defs
import proofs.«132461_j89618787598790_2_alg».proof.Proof.Gen.Kernel
import proofs.«132461_j89618787598790_2_alg».proof.Proof.Gen.Kernel.Frame
import proofs.«132461_j89618787598790_2_alg».proof.Proof.Gen.KernelIdeal
import proofs.«132461_j89618787598790_2_alg».proof.Proof.Gen.KernelIdeal.Frame
import proofs.«132461_j89618787598790_2_alg».proof.Proof.Gen.ReferenceIdeal
import proofs.«132461_j89618787598790_2_alg».proof.Proof.Gen.Pre_finite_inputs
import proofs.«132461_j89618787598790_2_alg».proof.Proof.Accum
import proofs.«132461_j89618787598790_2_alg».proof.Proof.Final
import proofs.«132461_j89618787598790_2_alg».proof.Proof.RefRun
import proofs.«132461_j89618787598790_2_alg».proof.Proof.RefRead
import Idealize.ShloMosaic.Adequacy
import Idealize.ShloMosaic.Init

noncomputable section

namespace Cert.Proof

open Idealize.ShloMosaic Idealize.ShloMosaic.TcCoe Idealize.SL.Sem

/-- The idealized kernel program ends with its result at the specification's function of the argument array, the
    argument unchanged: the accumulators' totals after the last grid point through the host tail. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v9)
            = Cert.PairLoss.G (m ((c.tc : Thread Cert.KernelIdeal.nD Cert.KernelIdeal.τ).loc Cert.KernelIdeal.main_arg0))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) :=
  Cert.KernelIdeal.Final.run_of m ρ (fun c => Cert.PairLoss.sumW (Cert.KernelIdeal.Accum.X m c))
    (fun c => Cert.PairLoss.sumEW (Cert.KernelIdeal.Accum.X m c)) (fun c h63 => Cert.KernelIdeal.Accum.outsAt_last m c h63)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the specification's function of argument arrays that agree. -/
theorem algebraic : Cert.algebraic_KernelIdeal_ReferenceIdeal := by
  intro m ρ m' ρ' _ hagree
  refine ⟨fun c => Cert.PairLoss.G (m ((c.tc : Thread Cert.KernelIdeal.nD Cert.KernelIdeal.τ).loc Cert.KernelIdeal.main_arg0)),
    kernel_run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.term_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
